-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S8192x4096 : Shape := ⟨2, ![8192, 4096]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S4096x4096, .bf16⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x256, .f32⟩
  | .local _ .vmem, ⟨5, _⟩ => ⟨S1024x256, .f32⟩
  | .local _ .vmem, ⟨6, _⟩ => ⟨S2048x256, .bf16⟩
  | .local _ .vmem, ⟨7, _⟩ => ⟨S2048x256, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  shapeCasts_S4096x1_S1x4096 : S4096x1.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x4096.size a
  hwx1_3 : ∀ i : grid1.Coords, EltTy.bits .f32 = 32 ∨ (Rect.block (s := S1x4096) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S8192x4096.size a
  hwx1_4 : ∀ i : grid1.Coords, EltTy.bits .f32 = 32 ∨ (Rect.block (s := S8192x4096) S1024x2048.size (cc1_transform_4 i) (hinb1_4 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .i1⟩
  | .hbm, ⟨13, _⟩ => ⟨S4096x1, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_3 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRegion0.lean ====
/-
  The first kernel region (the weight coding), at any float instance, over the contents `V` the region is entered with.

  The grid has 16 points; point t stages rows 256 t … 256 t + 255 of the weight matrix (all 4096 columns) and writes
  back the same rows of the coded matrix.  The body loads the staged block whole, computes the coded block from it as
  ONE pure function of the loaded block, and stores it whole: so after the body the output's staging buffer holds that
  function of the input block, whatever it held before.  Nothing is carried from point to point and no semaphore is
  the kernel's own, so the region's invariant is the plain one (the scoped buffers nobody stages and the generator
  register, untouched) and the core owes nothing throughout.
-/
import proofs.«109016_j48180943126805_2_alg».proof.Proof.Gen.Kernel.Launch
import proofs.«109016_j48180943126805_2_alg».proof.Proof.Gen.Kernel.Skeleton
import proofs.«109016_j48180943126805_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block when the body runs, at every point, for any proof data whose
    array is `V`'s and whose body leaves the input's buffer as it found it. -/
theorem before0_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output's staging buffer -/

/-- The whole 256 × 4096 block as a rectangle: the body's one load and one store go through it. -/
abbrev whole0 : Rect S256x4096 := Rect.unit (s := S256x4096) ![0, 0] S256x4096.size inb_S256x4096_S256x4096_0_0

/-- The coded block: the one store's payload, of the loaded input block, read back as the buffer's contents. -/
def coded (x0 : Vec F S256x4096 .f32) : Vec F S256x4096 .bf16 :=
  View.canon [⟨whole0, k0_pay1 (View.ld x0 whole0)⟩]

/-- The one store covers the buffer. -/
theorem coded_cover (p0 : Vec F S256x4096 .bf16) (y : S256x4096.Idx) :
    ∃ pc ∈ ([⟨whole0, p0⟩] : List (View.Piece (Elt F) S256x4096 .bf16)), y ∈ pc.1.set :=
  View.cover_of_tiled [⟨whole0, p0⟩] S256x4096.size (by rfl) y

/-! ## The body's triple -/

set_option maxHeartbeats 1000000 in
/-- The body on whole staging memrefs — the input's at contents `x0`, the output's at anything — runs to the
    continuation with the input's as it was and the output's at `coded x0`. -/
theorem body0_run (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (coded x0)) -∗ K ⟨⟩))
      ⊢ wp frame (wpE (defs₀ (F := F)) Variants.none c none) E (cc0_quantize_kernel i arg1 harg1 arg2 harg2) K := by
  simp only [cc0_quantize_kernel_eq_skeleton]; unfold cc0_quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coded_cover _)

/-! ## The region's proof data -/

/-- The proof data of the first pipeline on core `c`: the arrays as the region finds them; after the body at point
    `t` the input's buffer at its block and the output's at the coded block; the plain invariant; nothing owed; full
    shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => coded (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = blk0 V c 0 t := by dsimp only [dat0]
theorem dat0_after_out (c : Dev nD) (t : Fin cfg0.N) : (dat0 V c).after 1 t = coded (blk0 V c 0 t) := by dsimp only [dat0]

theorem dat0_before_in (c : Dev nD) (t : Fin cfg0.N) (d) : (dat0 V c).before 0 t d = blk0 V c 0 t :=
  before0_in_of V (dat0 V c) (dat0_A V c 0) (dat0_after_in V c) t d

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the run applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body0_run c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem obligation0 (c : Dev nD) : BodyObligation (dat0 (F := F) V c) (defs₀ (F := F)) Variants.none () Set.univ := fun t => by
  rw [bigSep_W0, bigSep_W0]
  exact body0_at V c t

end Cert.Kernel.Fr

end
-- ==== Proof.KernelRuns1.lean ====
/-
  The second kernel region (the tiled product with scale and bias): what its runs share, and the body's run in each
  of its three cases, at any float instance.

  The grid is 8 × 2 × 16: point (i, j, k) stages rows 1024 i … of the inputs (columns 256 k …), rows 2048 j … of the
  coded weights (columns 256 k …), columns 2048 j … of the scale and bias rows, and owns the 1024 × 2048 output block
  (i, j).  The last grid axis is the innermost, so the 16 points of one output block are consecutive: position
  t = 32 i + 16 j + k.  The body keeps a 1024 × 2048 accumulator in a scratch buffer that lives across points:
    k = 0        it zero-fills the accumulator, then adds this tile's product into it;
    0 < k < 15   it adds this tile's product into it;
    k = 15       it adds this tile's product into it, then stores accumulator × scale + bias into the output block.
  At the points k < 15 the output's staging buffer is neither stored into nor written back.
  The two branch conditions are scalar chains over k; they are decided over the grid once, in closed form.
-/
import proofs.«109016_j48180943126805_2_alg».proof.Proof.Gen.Kernel.Launch
import proofs.«109016_j48180943126805_2_alg».proof.Proof.Gen.Kernel.Skeleton
import proofs.«109016_j48180943126805_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first tile of the contraction": the body's first conditional, over the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)

/-- "This is the last tile of the contraction": the body's second conditional. -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Before the last tile the output window is idle and is not written back; at the last tile it is live. -/
theorem idle1_out : ∀ t : Fin cfg1.N, ¬isLast (grid1.coords t) → cfg1.idle 4 (grid1.coords t) = true := by decide +kernel
theorem noFlush1_out : ∀ t : Fin cfg1.N, ¬isLast (grid1.coords t) → (cfg1.win 4).flush t = false := by decide +kernel
theorem live1_out : ∀ t : Fin cfg1.N, isLast (grid1.coords t) → cfg1.idle 4 (grid1.coords t) = false := by decide +kernel

/-! ## The memrefs the body is called with -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev accM : Memref sig .tc .vmem S1024x2048 .f32 := Memref.whole cc1_scratch0
/-- Views through which contents of the accumulator and of the output block are stated (the choice does not matter
    for lists of stores that cover the shape). -/
abbrev accV : View sig .tc .vmem S1024x2048 .f32 := accM.view
abbrev outV : View sig .tc .vmem S1024x2048 .f32 := (Memref.whole cc1_stg4_0 : Memref sig .tc .vmem S1024x2048 .f32).view

/-- The scoped buffers that are no staging buffer of this region and are not the accumulator (the first region's
    four staging buffers), each whole at some contents: they ride through this region untouched. -/
def others1 (c : Dev nD) : sProp 𝕄 :=
  iprop((∃ d, owns (c : Thread nD τ) (Memref.whole cc0_stg0_0 : Memref sig .tc .vmem S256x4096 .f32) fullShare d)
    ∗ (∃ d, owns (c : Thread nD τ) (Memref.whole cc0_stg0_1 : Memref sig .tc .vmem S256x4096 .f32) fullShare d)
    ∗ (∃ d, owns (c : Thread nD τ) (Memref.whole cc0_stg1_0 : Memref sig .tc .vmem S256x4096 .bf16) fullShare d)
    ∗ (∃ d, owns (c : Thread nD τ) (Memref.whole cc0_stg1_1 : Memref sig .tc .vmem S256x4096 .bf16) fullShare d))

/-! ## The body's run, case by case

Each run is a subtype: the list(s) of stores the body ends with, WITH the proof that on
whole memrefs — the inputs' at their contents, an output the case leaves alone at contents handed back untouched, the
accumulator at what the point before left (at anything in the first case) — the body runs to the continuation that
holds the inputs' as they were and each stored-into buffer with those stores written. -/

set_option maxHeartbeats 2000000 in
/-- FIRST TILE (k = 0): zero fill, then this tile's product added. -/
noncomputable def runFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) :
    { LS : List (View.Piece (Elt F) S1024x2048 .f32) //
      ∀ (x2 x3 : Vec F S1x2048 .f32) (xo : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1_matmul_bias_kernel i arg3 harg3 arg4 harg4 arg5 harg5 arg6 harg6 arg7 harg7 arg8 harg8) K } := by
  refine ⟨?_, fun x2 x3 xo E K => ?run⟩
  case run =>
    simp only [cc1_matmul_bias_kernel_eq_skeleton]; unfold cc1_matmul_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- A MIDDLE TILE (0 < k < 15): this tile's product added to what the point before left (`xs`). -/
noncomputable def runMid (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) :
    { LS : List (View.Piece (Elt F) S1024x2048 .f32) //
      ∀ (x2 x3 : Vec F S1x2048 .f32) (xo : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1_matmul_bias_kernel i arg3 harg3 arg4 harg4 arg5 harg5 arg6 harg6 arg7 harg7 arg8 harg8) K } := by
  refine ⟨?_, fun x2 x3 xo E K => ?run⟩
  case run =>
    simp only [cc1_matmul_bias_kernel_eq_skeleton]; unfold cc1_matmul_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- THE LAST TILE (k = 15): this tile's product added, then accumulator × scale + bias stored into the output. -/
noncomputable def runLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS)) -∗ K ⟨⟩))
          ⊢ wp frame (wpE (defs₀ (F := F)) Variants.none c none) E (cc1_matmul_bias_kernel i arg3 harg3 arg4 harg4 arg5 harg5 arg6 harg6 arg7 harg7 arg8 harg8) K } := by
  refine ⟨?_, ?_, fun E K => ?run⟩
  case run =>
    simp only [cc1_matmul_bias_kernel_eq_skeleton]; unfold cc1_matmul_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Fr

end
-- ==== Proof.KernelRegion1.lean ====
/-
  The second kernel region's proof data and body obligation, at any float instance, over the contents `V` the region
  is entered with.

  What the accumulator holds after each point is defined by recursion on the point's position, case by case
  (first / middle / last tile of the contraction), each case's contents being what that case's stores leave; the
  region's invariant before a point that is not the first holds the accumulator at exactly what the point before
  left, so that a middle or last tile can read it.  The output's staging buffer is stored into at the last tile only,
  which is also the only point that writes the block back.
-/
import proofs.«109016_j48180943126805_2_alg».proof.Proof.Gen.Kernel.Launch
import proofs.«109016_j48180943126805_2_alg».proof.Proof.Gen.Kernel.Skeleton
import proofs.«109016_j48180943126805_2_alg».proof.Proof.Gen.Kernel.Points
import proofs.«109016_j48180943126805_2_alg».proof.Proof.KernelRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block when the body runs, at every point — fetched there, or left
    in place by the points since its last fetch (the scale and bias rows are fetched once per output block). -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What each case leaves -/

/-- A placeholder for the output's staging buffer at a point that does not store into it: nothing consults it. -/
def untouched : Vec F S1024x2048 .f32 := outV.read (Elt F) (outV.writes (Elt F) outV.junk [])

theorem coverFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) (y : S1024x2048.Idx) :
    ∃ pc ∈ (runFirst c i arg3 harg3 arg4 harg4 arg5 harg5 arg6 harg6 arg7 harg7 arg8 harg8 h0 h1 x0 x1).1, y ∈ pc.1.set :=
  View.cover_of_tiledL (runFirst c i arg3 harg3 arg4 harg4 arg5 harg5 arg6 harg6 arg7 harg7 arg8 harg8 h0 h1 x0 x1).1 S1024x2048.size (by sl_kernel_rfl) y
/-- The accumulator after a first tile. -/
def accFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) : Vec F S1024x2048 .f32 :=
  accV.read (Elt F) (accV.writes (Elt F) accV.junk (runFirst c i arg3 harg3 arg4 harg4 arg5 harg5 arg6 harg6 arg7 harg7 arg8 harg8 h0 h1 x0 x1).1)

theorem coverMid (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) (y : S1024x2048.Idx) :
    ∃ pc ∈ (runMid c i arg3 harg3 arg4 harg4 arg5 harg5 arg6 harg6 arg7 harg7 arg8 harg8 h0 h1 x0 x1 xs).1, y ∈ pc.1.set :=
  View.cover_of_tiledL (runMid c i arg3 harg3 arg4 harg4 arg5 harg5 arg6 harg6 arg7 harg7 arg8 harg8 h0 h1 x0 x1 xs).1 S1024x2048.size (by sl_kernel_rfl) y
/-- The accumulator after a middle tile, from what the point before left. -/
def accMid (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) : Vec F S1024x2048 .f32 :=
  accV.read (Elt F) (accV.writes (Elt F) accV.junk (runMid c i arg3 harg3 arg4 harg4 arg5 harg5 arg6 harg6 arg7 harg7 arg8 harg8 h0 h1 x0 x1 xs).1)

theorem coverLastO (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) (y : S1024x2048.Idx) :
    ∃ pc ∈ (runLast c i arg3 harg3 arg4 harg4 arg5 harg5 arg6 harg6 arg7 harg7 arg8 harg8 h0 h1 x0 x1 x2 x3 xs).1, y ∈ pc.1.set :=
  View.cover_of_tiledL (runLast c i arg3 harg3 arg4 harg4 arg5 harg5 arg6 harg6 arg7 harg7 arg8 harg8 h0 h1 x0 x1 x2 x3 xs).1 S1024x2048.size (by sl_kernel_rfl) y
theorem coverLastS (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) (y : S1024x2048.Idx) :
    ∃ pc ∈ (runLast c i arg3 harg3 arg4 harg4 arg5 harg5 arg6 harg6 arg7 harg7 arg8 harg8 h0 h1 x0 x1 x2 x3 xs).2.1, y ∈ pc.1.set :=
  View.cover_of_tiledL (runLast c i arg3 harg3 arg4 harg4 arg5 harg5 arg6 harg6 arg7 harg7 arg8 harg8 h0 h1 x0 x1 x2 x3 xs).2.1 S1024x2048.size (by sl_kernel_rfl) y
/-- The output block after a last tile, -/
def outLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) : Vec F S1024x2048 .f32 :=
  outV.read (Elt F) (outV.writes (Elt F) outV.junk (runLast c i arg3 harg3 arg4 harg4 arg5 harg5 arg6 harg6 arg7 harg7 arg8 harg8 h0 h1 x0 x1 x2 x3 xs).1)
/-- and the accumulator. -/
def accLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) : Vec F S1024x2048 .f32 :=
  accV.read (Elt F) (accV.writes (Elt F) accV.junk (runLast c i arg3 harg3 arg4 harg4 arg5 harg5 arg6 harg6 arg7 harg7 arg8 harg8 h0 h1 x0 x1 x2 x3 xs).2.1)

/-! ## Point by point -/

/-- What the output's staging buffer and the accumulator hold after the body at position `n` (a pair): the case the
    position is in (its remainder mod 16), run at the point's memrefs and input blocks, over the accumulator the
    position before left. -/
def accAt1 (c : Dev nD) : (n : ℕ) → n < cfg1.N → Vec F S1024x2048 .f32 × Vec F S1024x2048 .f32
  | 0, hn => (untouched, accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 16 = 0 then
      if h1 : (n + 1) % 16 = 15 then False.elim (by omega)
      else (untouched, accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 16 = 15 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn)).2,
         accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn)).2)
      else
        (untouched, accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (accAt1 c n (Nat.lt_of_succ_lt hn)).2)

/-- At a first tile. -/
theorem accAt1_first (c : Dev nD) (t : Fin cfg1.N) (h0 : t.val % 16 = 0) (h1 : ¬t.val % 16 = 15) :
    accAt1 V c t.val t.isLt = (untouched, accFirst c (grid1.coords t) (ms1_0 t) (hs1_0 t) (ms1_1 t) (hs1_1 t) (ms1_2 t) (hs1_2 t) (ms1_3 t) (hs1_3 t) (ms1_4 t) (hs1_4 t) accM (Memref.isWhole_whole _) ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- At a middle tile: over what the point before left. -/
theorem accAt1_mid (c : Dev nD) (t : Fin cfg1.N) (h0 : ¬t.val % 16 = 0) (h1 : ¬t.val % 16 = 15) :
    accAt1 V c t.val t.isLt = (untouched, accMid c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) (fun h => h1 ((isLast_iff t).mp h)) (blk1 V c 0 t) (blk1 V c 1 t) (accAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem accAt1_last (c : Dev nD) (t : Fin cfg1.N) (h0 : ¬t.val % 16 = 0) (h1 : t.val % 16 = 15) :
    accAt1 V c t.val t.isLt = (outLast c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (blk1 V c 0 t) (blk1 V c 1 t) (blk1 V c 2 t) (blk1 V c 3 t) (accAt1 V c (t.val - 1) (Nat.lt_of_le_of_lt (Nat.sub_le _ _) t.isLt)).2,
      accLast c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (blk1 V c 0 t) (blk1 V c 1 t) (blk1 V c 2 t) (blk1 V c 3 t) (accAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's scoped buffers nobody stages (the first region's staging buffers at anything, the accumulator as
    `P` says) and the generator register at some state. -/
def scopedWith (c : Dev nD) (P : sProp 𝕄) : sProp 𝕄 :=
  iprop(((∃ d, owns (c : Thread nD τ) (Memref.whole cc0_stg0_0 : Memref sig .tc .vmem S256x4096 .f32) fullShare d)
    ∗ (∃ d, owns (c : Thread nD τ) (Memref.whole cc0_stg0_1 : Memref sig .tc .vmem S256x4096 .f32) fullShare d)
    ∗ (∃ d, owns (c : Thread nD τ) (Memref.whole cc0_stg1_0 : Memref sig .tc .vmem S256x4096 .bf16) fullShare d)
    ∗ (∃ d, owns (c : Thread nD τ) (Memref.whole cc0_stg1_1 : Memref sig .tc .vmem S256x4096 .bf16) fullShare d)
    ∗ P) ∗ (∃ r, prngReg c r))

/-- The plain invariant is that, with the accumulator at anything. -/
theorem plain1_eq (c : Dev nD) :
    (Pipeline.ΦA spec1 c : sProp 𝕄) = scopedWith c iprop(∃ d, owns (c : Thread nD τ) accM fullShare d) := by
  unfold Pipeline.ΦA scopedWith; rw [scopedRest1_eq]; simp only [accM, owns_whole]; try rfl

/-- The invariant before position `n`: before the first point the plain one; afterwards the accumulator at what the
    point before left. -/
def carried (c : Dev nD) : (n : ℕ) → n ≤ cfg1.N → sProp 𝕄
  | 0, _ => Pipeline.ΦA spec1 c
  | n + 1, hn => scopedWith c (owns (c : Thread nD τ) accM fullShare ((accAt1 V c n hn).2))

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = scopedWith c (owns (c : Thread nD τ) accM fullShare ((accAt1 V c n hn).2)) := rfl
theorem carried_pos (c : Dev nD) (n : ℕ) (h : n ≤ cfg1.N) (hz : n ≠ 0) :
    carried V c n h = scopedWith c (owns (c : Thread nD τ) accM fullShare ((accAt1 V c (n - 1) (by omega)).2)) := by
  cases n with
  | zero => exact absurd rfl hz
  | succ n => rfl

/-! ## The proof data -/

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (accAt1 V c t.val t.isLt).1
  Φ t := carried V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_Phi_castSucc (c : Dev nD) (t : Fin cfg1.N) :
    (dat1 V c).Φ t.castSucc = carried V c t.val (Nat.le_of_lt t.isLt) := by
  dsimp only [dat1]; simp only [Fin.coe_castSucc]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = (accAt1 V c t.val t.isLt).1 := by dsimp only [dat1]
theorem dat1_before_0 (c : Dev nD) (t : Fin cfg1.N) (d) : (dat1 V c).before 0 t d = blk1 V c 0 t :=
  before1_0_of V (dat1 V c) (dat1_A V c 0) (dat1_after_0 V c) t d
theorem dat1_before_1 (c : Dev nD) (t : Fin cfg1.N) (d) : (dat1 V c).before 1 t d = blk1 V c 1 t :=
  before1_1_of V (dat1 V c) (dat1_A V c 1) (dat1_after_1 V c) t d
theorem dat1_before_2 (c : Dev nD) (t : Fin cfg1.N) (d) : (dat1 V c).before 2 t d = blk1 V c 2 t :=
  before1_2_of V (dat1 V c) (dat1_A V c 2) (dat1_after_2 V c) t d
theorem dat1_before_3 (c : Dev nD) (t : Fin cfg1.N) (d) : (dat1 V c).before 3 t d = blk1 V c 3 t :=
  before1_3_of V (dat1 V c) (dat1_A V c 3) (dat1_after_3 V c) t d

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The inputs' memrefs hold their blocks; the position's remainder mod 16 says which case
    the point is in; the invariant hands the body the accumulator at what the point before left (at anything at the
    very first point), and takes it back at this point's contents; the output's buffer is handed back untouched
    except at a last tile, where it is left at the stored block; the core owes nothing throughout. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2, dat1_before_3]
  rw [show (dat1 V c).owesAt () t.succ = (dat1 V c).owesAt () t.castSucc from rfl]
  rw [show (dat1 V c).Φ t.succ = carried V c (t.val + 1) t.isLt from rfl, carried_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [live1_0 t], dat1_after_0]
  rw [show (dat1 V c).leavesExact 1 t = owns (c : Thread nD τ) (ms1_1 t) fullShare ((dat1 V c).after 1 t) from by
    unfold Dat.leavesExact; rw [live1_1 t], dat1_after_1]
  rw [show (dat1 V c).leavesExact 2 t = owns (c : Thread nD τ) (ms1_2 t) fullShare ((dat1 V c).after 2 t) from by
    unfold Dat.leavesExact; rw [live1_2 t], dat1_after_2]
  rw [show (dat1 V c).leavesExact 3 t = owns (c : Thread nD τ) (ms1_3 t) fullShare ((dat1 V c).after 3 t) from by
    unfold Dat.leavesExact; rw [live1_3 t], dat1_after_3]
  by_cases h0 : t.val % 16 = 0
  · have h1 : ¬t.val % 16 = 15 := by omega
    rw [Dat.leavesExact_idle (dat1 V c) 4 t (idle1_out t (fun h => h1 ((isLast_iff t).mp h))) (noFlush1_out t (fun h => h1 ((isLast_iff t).mp h)))]
    rw [accAt1_first V c t h0 h1]
    unfold accFirst scopedWith; (try dsimp only)
    by_cases hz : t.val = 0
    · rw [dat1_Phi_castSucc V c t, carried_zero V c _ _ hz, plain1_eq]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ ((isFirst_iff t).mpr h0) (fun h => h1 ((isLast_iff t).mp h)) (blk1 V c 0 t) (blk1 V c 1 t)).2 _ _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [dat1_Phi_castSucc V c t, carried_pos V c _ _ hz]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ ((isFirst_iff t).mpr h0) (fun h => h1 ((isLast_iff t).mp h)) (blk1 V c 0 t) (blk1 V c 1 t)).2 _ _ _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [live1_out t ((isLast_iff t).mpr h1)], dat1_after_4]
      rw [accAt1_last V c t h0 h1]
      unfold outLast accLast scopedWith; (try dsimp only)
      rw [dat1_Phi_castSucc V c t, carried_pos V c _ _ hz]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (fun h => h0 ((isFirst_iff t).mp h)) ((isLast_iff t).mpr h1) (blk1 V c 0 t) (blk1 V c 1 t) (blk1 V c 2 t) (blk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverLastS c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _)
    · rw [Dat.leavesExact_idle (dat1 V c) 4 t (idle1_out t (fun h => h1 ((isLast_iff t).mp h))) (noFlush1_out t (fun h => h1 ((isLast_iff t).mp h)))]
      rw [accAt1_mid V c t h0 h1]
      unfold accMid scopedWith; (try dsimp only)
      rw [dat1_Phi_castSucc V c t, carried_pos V c _ _ hz]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (fun h => h0 ((isFirst_iff t).mp h)) (fun h => h1 ((isLast_iff t).mp h)) (blk1 V c 0 t) (blk1 V c 1 t) _).2 _ _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverMid c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation of the second pipeline, at every point. -/
theorem obligation1 (c : Dev nD) : BodyObligation (dat1 (F := F) V c) (defs₀ (F := F)) Variants.none () Set.univ := fun t => by
  rw [bigSep_W1, bigSep_W1]
  exact body1_at V c t

/-- What the launch hands the region is the invariant before the first point. -/
theorem enter1 (c : Dev nD) : Pipeline.ΦA spec1 c ⊢ (dat1 V c).Φ 0 := by
  rw [show (dat1 V c).Φ 0 = carried V c 0 (Nat.zero_le _) from rfl, carried_zero V c 0 _ rfl]
  try exact Idealize.SL.BI.Entails.refl _

/-- After the last point the invariant gives the plain one back: the accumulator's contents are forgotten. -/
theorem leave1 (c : Dev nD) : (dat1 V c).Φ (Fin.last cfg1.N) ⊢ Pipeline.ΦA spec1 c := by
  rw [show (dat1 V c).Φ (Fin.last cfg1.N) = carried V c (Fin.last cfg1.N).val (Nat.le_of_lt_succ (Fin.last cfg1.N).isLt) from rfl,
    carried_pos V c _ _ (by rw [Fin.val_last]; have : cfg1.N = 256 := N_1; omega), plain1_eq]
  unfold scopedWith
  iintro ⟨⟨HA, HB, HC, HD, HS⟩, Hg⟩
  isplitr [Hg]
  · isplitl [HA]; · iexact HA
    isplitl [HB]; · iexact HB
    isplitl [HC]; · iexact HC
    isplitl [HD]; · iexact HD
    iexists _; iexact HS
  iexact Hg

end Cert.Kernel.Fr

end
-- ==== Proof.KernelRun.lean ====
/-
  The whole run of the program, at any float instance: @main is the first kernel region, three host reshapes, the
  second kernel region and one host reshape, and every weakly fair execution of it from any memory terminates without
  a fault in a state whose unscoped buffers hold, by name, what those four segments leave one after the other.

  The contents at the five boundaries: the launch memory; then the first region's arrays at what its write-backs
  leave and every other buffer as before; then the three reshapes applied; then the second region's arrays at what
  its write-backs leave; then the last reshape applied.  No segment writes an argument array, so each argument reads
  back through the five steps to its launch contents: that is the frame claim.  The result buffer's final contents
  are named by the same post, which is what a value claim reads.
-/
import proofs.«109016_j48180943126805_2_alg».proof.Proof.Gen.Kernel.Launch
import proofs.«109016_j48180943126805_2_alg».proof.Proof.Gen.Kernel.Skeleton
import proofs.«109016_j48180943126805_2_alg».proof.Proof.Gen.Kernel.Points
import proofs.«109016_j48180943126805_2_alg».proof.Proof.Gen.Kernel.Regions
import proofs.«109016_j48180943126805_2_alg».proof.Proof.KernelRegion0
import proofs.«109016_j48180943126805_2_alg».proof.Proof.KernelRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev at0 : Dev nD → Valuation τ sig (Elt F) := fun c b => (s₀ m ρ).mem ((c : Dev nD), b)
/-- The same read at the TensorCore's references: what the first region is entered with. -/
abbrev in0 : (c : Dev nD) → (b : Ref sig .tc) → Buf (Elt F) ((c : Thread nD τ).loc b) := fun c b => at0 m ρ c b
/-- After the first region: its arrays at what the pipeline leaves, every other buffer as entered. -/
def at1 (c : Dev nD) : Valuation τ sig (Elt F) :=
  Pipeline.withArrays spec0 c (at0 m ρ c) fun w => (dat0 (in0 m ρ) c).arrAt w cfg0.N
theorem at1_arr (c : Dev nD) (w : Fin cfg0.W) :
    at1 m ρ c (Proc.devRef .tc (Pipeline.arrRef spec0 w)) = (dat0 (in0 m ρ) c).arrAt w cfg0.N := by
  unfold at1; exact Pipeline.withArrays_arr spec0 launch0.win.arr_inj c _ _ w
theorem at1_of_ne (c : Dev nD) (b : Ref sig .tc) (hb : ∀ w, Pipeline.arrRef spec0 w ≠ b) :
    at1 m ρ c (Proc.devRef .tc b) = at0 m ρ c (Proc.devRef .tc b) := by
  unfold at1; exact Pipeline.withArrays_of_ne spec0 c _ _ b hb
abbrev out0 : (c : Dev nD) → (b : Ref sig .tc) → Buf (Elt F) ((c : Thread nD τ).loc b) := fun c b => at1 m ρ c b
theorem exit0_arr (c : Dev nD) (w : Fin cfg0.W) : (dat0 (in0 m ρ) c).arrAt w cfg0.N = out0 m ρ c (Pipeline.arrRef spec0 w) :=
  (at1_arr m ρ c w).symm
theorem exit0_rest (c : Dev nD) : ∀ b, b ∉ Finset.univ.image (Pipeline.arrRef spec0) → out0 m ρ c b = in0 m ρ c b :=
  fun b hb => at1_of_ne m ρ c b fun w e => hb (Finset.mem_image.mpr ⟨w, Finset.mem_univ _, e⟩)

/-- After the three reshapes: what the second region is entered with. -/
abbrev at2 : Dev nD → Valuation τ sig (Elt F) := fun c => StableHlo.after hostOps1 (at1 m ρ c)
abbrev in1 : (c : Dev nD) → (b : Ref sig .tc) → Buf (Elt F) ((c : Thread nD τ).loc b) := fun c b => at2 m ρ c b
/-- After the second region. -/
def at3 (c : Dev nD) : Valuation τ sig (Elt F) :=
  Pipeline.withArrays spec1 c (at2 m ρ c) fun w => (dat1 (in1 m ρ) c).arrAt w cfg1.N
theorem at3_arr (c : Dev nD) (w : Fin cfg1.W) :
    at3 m ρ c (Proc.devRef .tc (Pipeline.arrRef spec1 w)) = (dat1 (in1 m ρ) c).arrAt w cfg1.N := by
  unfold at3; exact Pipeline.withArrays_arr spec1 launch1.win.arr_inj c _ _ w
theorem at3_of_ne (c : Dev nD) (b : Ref sig .tc) (hb : ∀ w, Pipeline.arrRef spec1 w ≠ b) :
    at3 m ρ c (Proc.devRef .tc b) = at2 m ρ c (Proc.devRef .tc b) := by
  unfold at3; exact Pipeline.withArrays_of_ne spec1 c _ _ b hb
abbrev out1 : (c : Dev nD) → (b : Ref sig .tc) → Buf (Elt F) ((c : Thread nD τ).loc b) := fun c b => at3 m ρ c b
theorem exit1_arr (c : Dev nD) (w : Fin cfg1.W) : (dat1 (in1 m ρ) c).arrAt w cfg1.N = out1 m ρ c (Pipeline.arrRef spec1 w) :=
  (at3_arr m ρ c w).symm
theorem exit1_rest (c : Dev nD) : ∀ b, b ∉ Finset.univ.image (Pipeline.arrRef spec1) → out1 m ρ c b = in1 m ρ c b :=
  fun b hb => at3_of_ne m ρ c b fun w e => hb (Finset.mem_image.mpr ⟨w, Finset.mem_univ _, e⟩)
/-- After the last reshape: the end. -/
abbrev at4 : Dev nD → Valuation τ sig (Elt F) := fun c => StableHlo.after hostOps2 (at3 m ρ c)

/-! ## The arguments end as launched -/

/-- `main_arg0` ends as launched: no host operation writes it and no region may change it. -/
theorem at4_main_arg0 (c : Dev nD) : at4 m ρ c (Proc.devRef .tc main_arg0) = m ((c : Thread nD τ).loc main_arg0) :=
  calc at4 m ρ c (Proc.devRef .tc main_arg0)
    _ = at3 m ρ c (Proc.devRef .tc main_arg0) := StableHlo.after_of_writes_sub hostOps2 _ hostOps2_writes (r := main_arg0) (by decide)
    _ = at2 m ρ c (Proc.devRef .tc main_arg0) := at3_of_ne m ρ c main_arg0 (by decide)
    _ = at1 m ρ c (Proc.devRef .tc main_arg0) := StableHlo.after_of_writes_sub hostOps1 _ hostOps1_writes (r := main_arg0) (by decide)
    _ = at0 m ρ c (Proc.devRef .tc main_arg0) := at1_of_ne m ρ c main_arg0 (by decide)
    _ = m ((c : Thread nD τ).loc main_arg0) := rfl

/-- `main_arg1` ends as launched: no host operation writes it and no region may change it. -/
theorem at4_main_arg1 (c : Dev nD) : at4 m ρ c (Proc.devRef .tc main_arg1) = m ((c : Thread nD τ).loc main_arg1) :=
  calc at4 m ρ c (Proc.devRef .tc main_arg1)
    _ = at3 m ρ c (Proc.devRef .tc main_arg1) := StableHlo.after_of_writes_sub hostOps2 _ hostOps2_writes (r := main_arg1) (by decide)
    _ = at2 m ρ c (Proc.devRef .tc main_arg1) := at3_of_ne m ρ c main_arg1 (by decide)
    _ = at1 m ρ c (Proc.devRef .tc main_arg1) := StableHlo.after_of_writes_sub hostOps1 _ hostOps1_writes (r := main_arg1) (by decide)
    _ = at0 m ρ c (Proc.devRef .tc main_arg1) := (at1_arr m ρ c 0).trans (((dat0 (in0 m ρ) c).arrAt_in 0 rfl _).trans (dat0_A (in0 m ρ) c 0))
    _ = m ((c : Thread nD τ).loc main_arg1) := rfl

/-- `main_arg2` ends as launched: no host operation writes it and no region may change it. -/
theorem at4_main_arg2 (c : Dev nD) : at4 m ρ c (Proc.devRef .tc main_arg2) = m ((c : Thread nD τ).loc main_arg2) :=
  calc at4 m ρ c (Proc.devRef .tc main_arg2)
    _ = at3 m ρ c (Proc.devRef .tc main_arg2) := StableHlo.after_of_writes_sub hostOps2 _ hostOps2_writes (r := main_arg2) (by decide)
    _ = at2 m ρ c (Proc.devRef .tc main_arg2) := at3_of_ne m ρ c main_arg2 (by decide)
    _ = at1 m ρ c (Proc.devRef .tc main_arg2) := StableHlo.after_of_writes_sub hostOps1 _ hostOps1_writes (r := main_arg2) (by decide)
    _ = at0 m ρ c (Proc.devRef .tc main_arg2) := at1_of_ne m ρ c main_arg2 (by decide)
    _ = m ((c : Thread nD τ).loc main_arg2) := rfl

/-- `main_arg3` ends as launched: no host operation writes it and no region may change it. -/
theorem at4_main_arg3 (c : Dev nD) : at4 m ρ c (Proc.devRef .tc main_arg3) = m ((c : Thread nD τ).loc main_arg3) :=
  calc at4 m ρ c (Proc.devRef .tc main_arg3)
    _ = at3 m ρ c (Proc.devRef .tc main_arg3) := StableHlo.after_of_writes_sub hostOps2 _ hostOps2_writes (r := main_arg3) (by decide)
    _ = at2 m ρ c (Proc.devRef .tc main_arg3) := at3_of_ne m ρ c main_arg3 (by decide)
    _ = at1 m ρ c (Proc.devRef .tc main_arg3) := StableHlo.after_of_writes_sub hostOps1 _ hostOps1_writes (r := main_arg3) (by decide)
    _ = at0 m ρ c (Proc.devRef .tc main_arg3) := at1_of_ne m ρ c main_arg3 (by decide)
    _ = m ((c : Thread nD τ).loc main_arg3) := rfl

/-! ## The proof data family and what rides beside the buffers -/

/-- Both pipelines' proof data, each at its region's entry contents. -/
def data : (p : Fin 2) → (c : Dev nD) → Dat τ (Elt F) Unit ℕ (UR sig nD τ) ℕ (Pipeline.pin (pcfgs (F := F)) adm p) c
  | ⟨0, _⟩ => fun c => dat0 (in0 m ρ) c
  | ⟨1, _⟩ => fun c => dat1 (in1 m ρ) c
abbrev noVariants : Variants := Variants.none
/-- No core owes another anything: no level is assigned. -/
abbrev noLevels : GSem nD τ sig → Finset Unit := fun _ => ∅
abbrev noLevel : GSem nD τ sig → Unit → ℕ := fun _ _ => 0
/-- What rides beside the buffers through every segment: the generator register at some state and the core's dues, at
    nothing. -/
abbrev riding (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- The last thread state without the dues. -/
abbrev atEnd (c : Dev nD) : sProp 𝕄 := iprop(StableHlo.held (c : Thread nD τ) (Pipeline.ucRefs τ sig) (at4 m ρ c) ∗ ∃ r, prngReg c r)

/-- The last stretch's thread state is the end state beside the core's dues. -/
theorem end_split (c : Dev nD) :
    iprop(StableHlo.held (c : Thread nD τ) (Pipeline.ucRefs τ sig) (at4 m ρ c) ∗ riding c)
      ⊢ iprop(atEnd m ρ c ∗ ∃ W, owes (c : Thread nD τ) (0 : CellTallies nD τ sig Unit) W) := by
  iintro ⟨Hh, Hp, HO⟩
  isplitr [HO]
  · isplitl [Hh]; · iexact Hh
    iexact Hp
  iexact HO

/-- After the last point the second region's invariant gives back the scoped buffers nobody stages and the generator
    register. -/
theorem leave1_plain (V : (c : Dev nD) → (b : Ref sig .tc) → Buf (Elt F) ((c : Thread nD τ).loc b)) (c : Dev nD) :
    (dat1 V c).Φ (Fin.last cfg1.N) ⊢ iprop(Pipeline.scopedRest spec1 c ∗ ∃ r, prngReg c r) := by
  have h := leave1 V c
  unfold Pipeline.ΦA at h
  exact h

/-! ## The regions as segments -/

set_option backward.isDefEq.respectTransparency.types false in
/-- Region 0 as a segment: entered with every unscoped buffer at `at0`, left with them at `at1`.  Its
    windows' arrays are split out of the unscoped buffers on entry and put back at their final contents on exit; the
    generator register goes into the region's invariant and comes back; nothing is owed; the kernel has no semaphore
    of its own. -/
def reg0 : Pipeline.RegionSeg (pcfgs (F := F)) adm (data m ρ) () defs₀ noVariants noLevels noLevel 0 where
  win := launch0.win.to₀
  block_pos := launch0.block_pos
  stage_whole := launch0.stage_whole
  K := PEmpty
  osem k := k.elim
  ho := Pipeline.OwnSemFacts.none _
  hbody c := (obligation0 (in0 m ρ) c).loose
  hwaits := Pipeline.hwaits_of_owed_zero _ _ _ _ noLevels noLevel 0 fun _ _ => rfl
  pre c := iprop(StableHlo.held (c : Thread nD τ) (Pipeline.ucRefs τ sig) (at0 m ρ c) ∗ riding c)
  post c := iprop(StableHlo.held (c : Thread nD τ) (Pipeline.ucRefs τ sig) (at1 m ρ c) ∗ riding c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (data m ρ) launch0.win launch0.arr_whole c
      ((data m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (data m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (data m ρ) ((data m ρ 0 c).share_full fun _ => rfl)
      (in0 m ρ c) (out0 m ρ c) ((data m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `at2`, left with them at `at3`.  Its
    windows' arrays are split out of the unscoped buffers on entry and put back at their final contents on exit; the
    generator register goes into the region's invariant and comes back; nothing is owed; the kernel has no semaphore
    of its own. -/
def reg1 : Pipeline.RegionSeg (pcfgs (F := F)) adm (data m ρ) () defs₀ noVariants noLevels noLevel 1 where
  win := launch1.win.to₀
  block_pos := launch1.block_pos
  stage_whole := launch1.stage_whole
  K := PEmpty
  osem k := k.elim
  ho := Pipeline.OwnSemFacts.none _
  hbody c := (obligation1 (in1 m ρ) c).loose
  hwaits := Pipeline.hwaits_of_owed_zero _ _ _ _ noLevels noLevel 1 fun _ _ => rfl
  pre c := iprop(StableHlo.held (c : Thread nD τ) (Pipeline.ucRefs τ sig) (at2 m ρ c) ∗ riding c)
  post c := iprop(StableHlo.held (c : Thread nD τ) (Pipeline.ucRefs τ sig) (at3 m ρ c) ∗ riding c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (data m ρ) launch1.win launch1.arr_whole c
      ((data m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hleave : (data m ρ 1 c).Φ (Fin.last _) ⊢ iprop(Pipeline.scopedRest spec1 c ∗ ∃ r, prngReg c r) := leave1_plain (in1 m ρ) c
    iintro H
    ihave H2 := hleave $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (data m ρ) ((data m ρ 1 c).share_full fun _ => rfl)
      (in1 m ρ c) (out1 m ρ c) ((data m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev parts : List (Pipeline.Seg (pcfgs (F := F)) adm (data m ρ) () defs₀ noVariants noLevels noLevel) :=
  [ .region (reg0 m ρ),
    .host (stretch hostOps1 hostOps1_sub hostOps1_fresh (at1 m ρ)),
    .region (reg1 m ρ),
    .host (stretch hostOps2 hostOps2_sub hostOps2_fresh (at3 m ρ)) ]
/-- @main IS the run of the segments. -/
theorem main_is_parts (c : Dev nD) : main (F := F) c = Pipeline.Seg.run (parts m ρ) := (main_chain c).trans (by chain_rfl)

set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at4 m ρ c b) :=
  Pipeline.θ_run_regions_kit (pcfgs (F := F)) adm (data m ρ) () cellOf_inj emb₁ defs₀ noVariants noLevels noLevel m ρ main (parts m ρ)
    (fun c Q => by rw [main_is_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ riding c)) (Tₙ := atEnd m ρ)
    (hch := ⟨fun _ => .rfl, fun _ => .rfl, fun _ => .rfl, fun _ => .rfl, fun c => end_split m ρ c⟩)
    (hinit := by
      refine Pipeline.initEach noLevels noLevel fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h c => h c)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the run terminates, faults nowhere, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (held_ref main_arg0 (by decide))).trans (at4_main_arg0 m ρ c),
     (h c _ (held_ref main_arg1 (by decide))).trans (at4_main_arg1 m ρ c),
     (h c _ (held_ref main_arg2 (by decide))).trans (at4_main_arg2 m ρ c),
     (h c _ (held_ref main_arg3 (by decide))).trans (at4_main_arg3 m ρ c)⟩) (run_all m ρ)

end Cert.Kernel.Fr

end
-- ==== Proof.KernelIdealRegion0.lean ====
/-
  The first kernel region (the weight coding), at any float instance, over the contents `V` the region is entered with.

  The grid has 16 points; point t stages rows 256 t … 256 t + 255 of the weight matrix (all 4096 columns) and writes
  back the same rows of the coded matrix.  The body loads the staged block whole, computes the coded block from it as
  ONE pure function of the loaded block, and stores it whole: so after the body the output's staging buffer holds that
  function of the input block, whatever it held before.  Nothing is carried from point to point and no semaphore is
  the kernel's own, so the region's invariant is the plain one (the scoped buffers nobody stages and the generator
  register, untouched) and the core owes nothing throughout.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block when the body runs, at every point, for any proof data whose
    array is `V`'s and whose body leaves the input's buffer as it found it. -/
theorem before0_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in the output's staging buffer -/

/-- The whole 256 × 4096 block as a rectangle: the body's one load and one store go through it. -/
abbrev whole0 : Rect S256x4096 := Rect.unit (s := S256x4096) ![0, 0] S256x4096.size inb_S256x4096_S256x4096_0_0

/-- The coded block: the one store's payload, of the loaded input block, read back as the buffer's contents. -/
def coded (x0 : Vec F S256x4096 .f32) : Vec F S256x4096 .bf16 :=
  View.canon [⟨whole0, k0_pay1 (View.ld x0 whole0)⟩]

/-- The one store covers the buffer. -/
theorem coded_cover (p0 : Vec F S256x4096 .bf16) (y : S256x4096.Idx) :
    ∃ pc ∈ ([⟨whole0, p0⟩] : List (View.Piece (Elt F) S256x4096 .bf16)), y ∈ pc.1.set :=
  View.cover_of_tiled [⟨whole0, p0⟩] S256x4096.size (by rfl) y

/-! ## The body's triple -/

set_option maxHeartbeats 1000000 in
/-- The body on whole staging memrefs — the input's at contents `x0`, the output's at anything — runs to the
    continuation with the input's as it was and the output's at `coded x0`. -/
theorem body0_run (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (coded x0)) -∗ K ⟨⟩))
      ⊢ wp frame (wpE (defs₀ (F := F)) Variants.none c none) E (cc0_quantize_kernel i arg1 harg1 arg2 harg2) K := by
  simp only [cc0_quantize_kernel_eq_skeleton]; unfold cc0_quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coded_cover _)

/-! ## The region's proof data -/

/-- The proof data of the first pipeline on core `c`: the arrays as the region finds them; after the body at point
    `t` the input's buffer at its block and the output's at the coded block; the plain invariant; nothing owed; full
    shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => coded (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = blk0 V c 0 t := by dsimp only [dat0]
theorem dat0_after_out (c : Dev nD) (t : Fin cfg0.N) : (dat0 V c).after 1 t = coded (blk0 V c 0 t) := by dsimp only [dat0]

theorem dat0_before_in (c : Dev nD) (t : Fin cfg0.N) (d) : (dat0 V c).before 0 t d = blk0 V c 0 t :=
  before0_in_of V (dat0 V c) (dat0_A V c 0) (dat0_after_in V c) t d

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the run applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body0_run c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem obligation0 (c : Dev nD) : BodyObligation (dat0 (F := F) V c) (defs₀ (F := F)) Variants.none () Set.univ := fun t => by
  rw [bigSep_W0, bigSep_W0]
  exact body0_at V c t

end Cert.KernelIdeal.Fr

end
-- ==== Proof.KernelIdealRuns1.lean ====
/-
  The second kernel region (the tiled product with scale and bias): what its runs share, and the body's run in each
  of its three cases, at any float instance.

  The grid is 8 × 2 × 16: point (i, j, k) stages rows 1024 i … of the inputs (columns 256 k …), rows 2048 j … of the
  coded weights (columns 256 k …), columns 2048 j … of the scale and bias rows, and owns the 1024 × 2048 output block
  (i, j).  The last grid axis is the innermost, so the 16 points of one output block are consecutive: position
  t = 32 i + 16 j + k.  The body keeps a 1024 × 2048 accumulator in a scratch buffer that lives across points:
    k = 0        it zero-fills the accumulator, then adds this tile's product into it;
    0 < k < 15   it adds this tile's product into it;
    k = 15       it adds this tile's product into it, then stores accumulator × scale + bias into the output block.
  At the points k < 15 the output's staging buffer is neither stored into nor written back.
  The two branch conditions are scalar chains over k; they are decided over the grid once, in closed form.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first tile of the contraction": the body's first conditional, over the grid coordinates. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)

/-- "This is the last tile of the contraction": the body's second conditional. -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Before the last tile the output window is idle and is not written back; at the last tile it is live. -/
theorem idle1_out : ∀ t : Fin cfg1.N, ¬isLast (grid1.coords t) → cfg1.idle 4 (grid1.coords t) = true := by decide +kernel
theorem noFlush1_out : ∀ t : Fin cfg1.N, ¬isLast (grid1.coords t) → (cfg1.win 4).flush t = false := by decide +kernel
theorem live1_out : ∀ t : Fin cfg1.N, isLast (grid1.coords t) → cfg1.idle 4 (grid1.coords t) = false := by decide +kernel

/-! ## The memrefs the body is called with -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev accM : Memref sig .tc .vmem S1024x2048 .f32 := Memref.whole cc1_scratch0
/-- Views through which contents of the accumulator and of the output block are stated (the choice does not matter
    for lists of stores that cover the shape). -/
abbrev accV : View sig .tc .vmem S1024x2048 .f32 := accM.view
abbrev outV : View sig .tc .vmem S1024x2048 .f32 := (Memref.whole cc1_stg4_0 : Memref sig .tc .vmem S1024x2048 .f32).view

/-- The scoped buffers that are no staging buffer of this region and are not the accumulator (the first region's
    four staging buffers), each whole at some contents: they ride through this region untouched. -/
def others1 (c : Dev nD) : sProp 𝕄 :=
  iprop((∃ d, owns (c : Thread nD τ) (Memref.whole cc0_stg0_0 : Memref sig .tc .vmem S256x4096 .f32) fullShare d)
    ∗ (∃ d, owns (c : Thread nD τ) (Memref.whole cc0_stg0_1 : Memref sig .tc .vmem S256x4096 .f32) fullShare d)
    ∗ (∃ d, owns (c : Thread nD τ) (Memref.whole cc0_stg1_0 : Memref sig .tc .vmem S256x4096 .bf16) fullShare d)
    ∗ (∃ d, owns (c : Thread nD τ) (Memref.whole cc0_stg1_1 : Memref sig .tc .vmem S256x4096 .bf16) fullShare d))

/-! ## The body's run, case by case

Each run is a subtype: the list(s) of stores the body ends with, WITH the proof that on
whole memrefs — the inputs' at their contents, an output the case leaves alone at contents handed back untouched, the
accumulator at what the point before left (at anything in the first case) — the body runs to the continuation that
holds the inputs' as they were and each stored-into buffer with those stores written. -/

set_option maxHeartbeats 2000000 in
/-- FIRST TILE (k = 0): zero fill, then this tile's product added. -/
noncomputable def runFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) :
    { LS : List (View.Piece (Elt F) S1024x2048 .f32) //
      ∀ (x2 x3 : Vec F S1x2048 .f32) (xo : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1_matmul_bias_kernel i arg3 harg3 arg4 harg4 arg5 harg5 arg6 harg6 arg7 harg7 arg8 harg8) K } := by
  refine ⟨?_, fun x2 x3 xo E K => ?run⟩
  case run =>
    simp only [cc1_matmul_bias_kernel_eq_skeleton]; unfold cc1_matmul_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- A MIDDLE TILE (0 < k < 15): this tile's product added to what the point before left (`xs`). -/
noncomputable def runMid (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) :
    { LS : List (View.Piece (Elt F) S1024x2048 .f32) //
      ∀ (x2 x3 : Vec F S1x2048 .f32) (xo : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LS)) -∗ K ⟨⟩))
          ⊢ wp frame (wpE (defs₀ (F := F)) Variants.none c none) E (cc1_matmul_bias_kernel i arg3 harg3 arg4 harg4 arg5 harg5 arg6 harg6 arg7 harg7 arg8 harg8) K } := by
  refine ⟨?_, fun x2 x3 xo E K => ?run⟩
  case run =>
    simp only [cc1_matmul_bias_kernel_eq_skeleton]; unfold cc1_matmul_bias_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

set_option maxHeartbeats 2000000 in
/-- THE LAST TILE (k = 15): this tile's product added, then accumulator × scale + bias stored into the output. -/
noncomputable def runLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f LO)
                ∗ (∃ f, arg8.view.loc (c : Thread nD τ) ↦[arg8.view.set]{fullShare} arg8.view.writes (Elt F) f LS)) -∗ K ⟨⟩))
          ⊢ wp frame (wpE (defs₀ (F := F)) Variants.none c none) E (cc1_matmul_bias_kernel i arg3 harg3 arg4 harg4 arg5 harg5 arg6 harg6 arg7 harg7 arg8 harg8) K } := by
  refine ⟨?_, ?_, fun E K => ?run⟩
  case run =>
    simp only [cc1_matmul_bias_kernel_eq_skeleton]; unfold cc1_matmul_bias_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2
    obtain rfl := harg6.eq_unread hf3; obtain rfl := harg8.eq_unread hfs
    sl_exec (disch := first | exact h0 | exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Fr

end
-- ==== Proof.KernelIdealRegion1.lean ====
/-
  The second kernel region's proof data and body obligation, at any float instance, over the contents `V` the region
  is entered with.

  What the accumulator holds after each point is defined by recursion on the point's position, case by case
  (first / middle / last tile of the contraction), each case's contents being what that case's stores leave; the
  region's invariant before a point that is not the first holds the accumulator at exactly what the point before
  left, so that a middle or last tile can read it.  The output's staging buffer is stored into at the last tile only,
  which is also the only point that writes the block back.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import proofs.«109016_j48180943126805_2_alg».proof.Proof.KernelIdealRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block when the body runs, at every point — fetched there, or left
    in place by the points since its last fetch (the scale and bias rows are fetched once per output block). -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-! ## What each case leaves -/

/-- A placeholder for the output's staging buffer at a point that does not store into it: nothing consults it. -/
def untouched : Vec F S1024x2048 .f32 := outV.read (Elt F) (outV.writes (Elt F) outV.junk [])

theorem coverFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) (y : S1024x2048.Idx) :
    ∃ pc ∈ (runFirst c i arg3 harg3 arg4 harg4 arg5 harg5 arg6 harg6 arg7 harg7 arg8 harg8 h0 h1 x0 x1).1, y ∈ pc.1.set :=
  View.cover_of_tiledL (runFirst c i arg3 harg3 arg4 harg4 arg5 harg5 arg6 harg6 arg7 harg7 arg8 harg8 h0 h1 x0 x1).1 S1024x2048.size (by sl_kernel_rfl) y
/-- The accumulator after a first tile. -/
def accFirst (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) : Vec F S1024x2048 .f32 :=
  accV.read (Elt F) (accV.writes (Elt F) accV.junk (runFirst c i arg3 harg3 arg4 harg4 arg5 harg5 arg6 harg6 arg7 harg7 arg8 harg8 h0 h1 x0 x1).1)

theorem coverMid (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) (y : S1024x2048.Idx) :
    ∃ pc ∈ (runMid c i arg3 harg3 arg4 harg4 arg5 harg5 arg6 harg6 arg7 harg7 arg8 harg8 h0 h1 x0 x1 xs).1, y ∈ pc.1.set :=
  View.cover_of_tiledL (runMid c i arg3 harg3 arg4 harg4 arg5 harg5 arg6 harg6 arg7 harg7 arg8 harg8 h0 h1 x0 x1 xs).1 S1024x2048.size (by sl_kernel_rfl) y
/-- The accumulator after a middle tile, from what the point before left. -/
def accMid (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) : Vec F S1024x2048 .f32 :=
  accV.read (Elt F) (accV.writes (Elt F) accV.junk (runMid c i arg3 harg3 arg4 harg4 arg5 harg5 arg6 harg6 arg7 harg7 arg8 harg8 h0 h1 x0 x1 xs).1)

theorem coverLastO (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) (y : S1024x2048.Idx) :
    ∃ pc ∈ (runLast c i arg3 harg3 arg4 harg4 arg5 harg5 arg6 harg6 arg7 harg7 arg8 harg8 h0 h1 x0 x1 x2 x3 xs).1, y ∈ pc.1.set :=
  View.cover_of_tiledL (runLast c i arg3 harg3 arg4 harg4 arg5 harg5 arg6 harg6 arg7 harg7 arg8 harg8 h0 h1 x0 x1 x2 x3 xs).1 S1024x2048.size (by sl_kernel_rfl) y
theorem coverLastS (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) (y : S1024x2048.Idx) :
    ∃ pc ∈ (runLast c i arg3 harg3 arg4 harg4 arg5 harg5 arg6 harg6 arg7 harg7 arg8 harg8 h0 h1 x0 x1 x2 x3 xs).2.1, y ∈ pc.1.set :=
  View.cover_of_tiledL (runLast c i arg3 harg3 arg4 harg4 arg5 harg5 arg6 harg6 arg7 harg7 arg8 harg8 h0 h1 x0 x1 x2 x3 xs).2.1 S1024x2048.size (by sl_kernel_rfl) y
/-- The output block after a last tile, -/
def outLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) : Vec F S1024x2048 .f32 :=
  outV.read (Elt F) (outV.writes (Elt F) outV.junk (runLast c i arg3 harg3 arg4 harg4 arg5 harg5 arg6 harg6 arg7 harg7 arg8 harg8 h0 h1 x0 x1 x2 x3 xs).1)
/-- and the accumulator. -/
def accLast (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) : Vec F S1024x2048 .f32 :=
  accV.read (Elt F) (accV.writes (Elt F) accV.junk (runLast c i arg3 harg3 arg4 harg4 arg5 harg5 arg6 harg6 arg7 harg7 arg8 harg8 h0 h1 x0 x1 x2 x3 xs).2.1)

/-! ## Point by point -/

/-- What the output's staging buffer and the accumulator hold after the body at position `n` (a pair): the case the
    position is in (its remainder mod 16), run at the point's memrefs and input blocks, over the accumulator the
    position before left. -/
def accAt1 (c : Dev nD) : (n : ℕ) → n < cfg1.N → Vec F S1024x2048 .f32 × Vec F S1024x2048 .f32
  | 0, hn => (untouched, accFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) accM (Memref.isWhole_whole _) ((isFirst_iff ⟨0, hn⟩).mpr (Nat.zero_mod _)) (fun h => (fun h => by (try dsimp only at h); omega) ((isLast_iff ⟨0, hn⟩).mp h)) (blk1 V c 0 ⟨0, hn⟩) (blk1 V c 1 ⟨0, hn⟩))
  | n + 1, hn =>
    if h0 : (n + 1) % 16 = 0 then
      if h1 : (n + 1) % 16 = 15 then False.elim (by omega)
      else (untouched, accFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) ((isFirst_iff ⟨n + 1, hn⟩).mpr h0) (fun h => h1 ((isLast_iff ⟨n + 1, hn⟩).mp h)) (blk1 V c 0 ⟨n + 1, hn⟩) (blk1 V c 1 ⟨n + 1, hn⟩))
    else
      if h1 : (n + 1) % 16 = 15 then
        (outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn)).2,
         accLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) ((isLast_iff ⟨n + 1, hn⟩).mpr h1) (blk1 V c 0 ⟨n + 1, hn⟩) (blk1 V c 1 ⟨n + 1, hn⟩) (blk1 V c 2 ⟨n + 1, hn⟩) (blk1 V c 3 ⟨n + 1, hn⟩) (accAt1 c n (Nat.lt_of_succ_lt hn)).2)
      else
        (untouched, accMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) accM (Memref.isWhole_whole _) (fun h => h0 ((isFirst_iff ⟨n + 1, hn⟩).mp h)) (fun h => h1 ((isLast_iff ⟨n + 1, hn⟩).mp h)) (blk1 V c 0 ⟨n + 1, hn⟩) (blk1 V c 1 ⟨n + 1, hn⟩) (accAt1 c n (Nat.lt_of_succ_lt hn)).2)

/-- At a first tile. -/
theorem accAt1_first (c : Dev nD) (t : Fin cfg1.N) (h0 : t.val % 16 = 0) (h1 : ¬t.val % 16 = 15) :
    accAt1 V c t.val t.isLt = (untouched, accFirst c (grid1.coords t) (ms1_0 t) (hs1_0 t) (ms1_1 t) (hs1_1 t) (ms1_2 t) (hs1_2 t) (ms1_3 t) (hs1_3 t) (ms1_4 t) (hs1_4 t) accM (Memref.isWhole_whole _) ((isFirst_iff t).mpr h0) (fun h => h1 ((isLast_iff t).mp h)) (blk1 V c 0 t) (blk1 V c 1 t)) := by
  obtain ⟨n, hn⟩ := t
  cases n with
  | zero => exact rfl
  | succ n => exact (dif_pos h0).trans ((dif_neg h1).trans rfl)

/-- At a middle tile: over what the point before left. -/
theorem accAt1_mid (c : Dev nD) (t : Fin cfg1.N) (h0 : ¬t.val % 16 = 0) (h1 : ¬t.val % 16 = 15) :
    accAt1 V c t.val t.isLt = (untouched, accMid c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) (fun h => h1 ((isLast_iff t).mp h)) (blk1 V c 0 t) (blk1 V c 1 t) (accAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem accAt1_last (c : Dev nD) (t : Fin cfg1.N) (h0 : ¬t.val % 16 = 0) (h1 : t.val % 16 = 15) :
    accAt1 V c t.val t.isLt = (outLast c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (blk1 V c 0 t) (blk1 V c 1 t) (blk1 V c 2 t) (blk1 V c 3 t) (accAt1 V c (t.val - 1) (Nat.lt_of_le_of_lt (Nat.sub_le _ _) t.isLt)).2,
      accLast c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (blk1 V c 0 t) (blk1 V c 1 t) (blk1 V c 2 t) (blk1 V c 3 t) (accAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's scoped buffers nobody stages (the first region's staging buffers at anything, the accumulator as
    `P` says) and the generator register at some state. -/
def scopedWith (c : Dev nD) (P : sProp 𝕄) : sProp 𝕄 :=
  iprop(((∃ d, owns (c : Thread nD τ) (Memref.whole cc0_stg0_0 : Memref sig .tc .vmem S256x4096 .f32) fullShare d)
    ∗ (∃ d, owns (c : Thread nD τ) (Memref.whole cc0_stg0_1 : Memref sig .tc .vmem S256x4096 .f32) fullShare d)
    ∗ (∃ d, owns (c : Thread nD τ) (Memref.whole cc0_stg1_0 : Memref sig .tc .vmem S256x4096 .bf16) fullShare d)
    ∗ (∃ d, owns (c : Thread nD τ) (Memref.whole cc0_stg1_1 : Memref sig .tc .vmem S256x4096 .bf16) fullShare d)
    ∗ P) ∗ (∃ r, prngReg c r))

/-- The plain invariant is that, with the accumulator at anything. -/
theorem plain1_eq (c : Dev nD) :
    (Pipeline.ΦA spec1 c : sProp 𝕄) = scopedWith c iprop(∃ d, owns (c : Thread nD τ) accM fullShare d) := by
  unfold Pipeline.ΦA scopedWith; rw [scopedRest1_eq]; simp only [accM, owns_whole]; try rfl

/-- The invariant before position `n`: before the first point the plain one; afterwards the accumulator at what the
    point before left. -/
def carried (c : Dev nD) : (n : ℕ) → n ≤ cfg1.N → sProp 𝕄
  | 0, _ => Pipeline.ΦA spec1 c
  | n + 1, hn => scopedWith c (owns (c : Thread nD τ) accM fullShare ((accAt1 V c n hn).2))

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = scopedWith c (owns (c : Thread nD τ) accM fullShare ((accAt1 V c n hn).2)) := rfl
theorem carried_pos (c : Dev nD) (n : ℕ) (h : n ≤ cfg1.N) (hz : n ≠ 0) :
    carried V c n h = scopedWith c (owns (c : Thread nD τ) accM fullShare ((accAt1 V c (n - 1) (by omega)).2)) := by
  cases n with
  | zero => exact absurd rfl hz
  | succ n => rfl

/-! ## The proof data -/

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => (accAt1 V c t.val t.isLt).1
  Φ t := carried V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_Phi_castSucc (c : Dev nD) (t : Fin cfg1.N) :
    (dat1 V c).Φ t.castSucc = carried V c t.val (Nat.le_of_lt t.isLt) := by
  dsimp only [dat1]; simp only [Fin.coe_castSucc]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = (accAt1 V c t.val t.isLt).1 := by dsimp only [dat1]
theorem dat1_before_0 (c : Dev nD) (t : Fin cfg1.N) (d) : (dat1 V c).before 0 t d = blk1 V c 0 t :=
  before1_0_of V (dat1 V c) (dat1_A V c 0) (dat1_after_0 V c) t d
theorem dat1_before_1 (c : Dev nD) (t : Fin cfg1.N) (d) : (dat1 V c).before 1 t d = blk1 V c 1 t :=
  before1_1_of V (dat1 V c) (dat1_A V c 1) (dat1_after_1 V c) t d
theorem dat1_before_2 (c : Dev nD) (t : Fin cfg1.N) (d) : (dat1 V c).before 2 t d = blk1 V c 2 t :=
  before1_2_of V (dat1 V c) (dat1_A V c 2) (dat1_after_2 V c) t d
theorem dat1_before_3 (c : Dev nD) (t : Fin cfg1.N) (d) : (dat1 V c).before 3 t d = blk1 V c 3 t :=
  before1_3_of V (dat1 V c) (dat1_A V c 3) (dat1_after_3 V c) t d

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The inputs' memrefs hold their blocks; the position's remainder mod 16 says which case
    the point is in; the invariant hands the body the accumulator at what the point before left (at anything at the
    very first point), and takes it back at this point's contents; the output's buffer is handed back untouched
    except at a last tile, where it is left at the stored block; the core owes nothing throughout. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2, dat1_before_3]
  rw [show (dat1 V c).owesAt () t.succ = (dat1 V c).owesAt () t.castSucc from rfl]
  rw [show (dat1 V c).Φ t.succ = carried V c (t.val + 1) t.isLt from rfl, carried_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [live1_0 t], dat1_after_0]
  rw [show (dat1 V c).leavesExact 1 t = owns (c : Thread nD τ) (ms1_1 t) fullShare ((dat1 V c).after 1 t) from by
    unfold Dat.leavesExact; rw [live1_1 t], dat1_after_1]
  rw [show (dat1 V c).leavesExact 2 t = owns (c : Thread nD τ) (ms1_2 t) fullShare ((dat1 V c).after 2 t) from by
    unfold Dat.leavesExact; rw [live1_2 t], dat1_after_2]
  rw [show (dat1 V c).leavesExact 3 t = owns (c : Thread nD τ) (ms1_3 t) fullShare ((dat1 V c).after 3 t) from by
    unfold Dat.leavesExact; rw [live1_3 t], dat1_after_3]
  by_cases h0 : t.val % 16 = 0
  · have h1 : ¬t.val % 16 = 15 := by omega
    rw [Dat.leavesExact_idle (dat1 V c) 4 t (idle1_out t (fun h => h1 ((isLast_iff t).mp h))) (noFlush1_out t (fun h => h1 ((isLast_iff t).mp h)))]
    rw [accAt1_first V c t h0 h1]
    unfold accFirst scopedWith; (try dsimp only)
    by_cases hz : t.val = 0
    · rw [dat1_Phi_castSucc V c t, carried_zero V c _ _ hz, plain1_eq]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ ((isFirst_iff t).mpr h0) (fun h => h1 ((isLast_iff t).mp h)) (blk1 V c 0 t) (blk1 V c 1 t)).2 _ _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [dat1_Phi_castSucc V c t, carried_pos V c _ _ hz]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ ((isFirst_iff t).mpr h0) (fun h => h1 ((isLast_iff t).mp h)) (blk1 V c 0 t) (blk1 V c 1 t)).2 _ _ _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dat1 V c).leavesExact 4 t = owns (c : Thread nD τ) (ms1_4 t) fullShare ((dat1 V c).after 4 t) from by
        unfold Dat.leavesExact; rw [live1_out t ((isLast_iff t).mpr h1)], dat1_after_4]
      rw [accAt1_last V c t h0 h1]
      unfold outLast accLast scopedWith; (try dsimp only)
      rw [dat1_Phi_castSucc V c t, carried_pos V c _ _ hz]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (fun h => h0 ((isFirst_iff t).mp h)) ((isLast_iff t).mpr h1) (blk1 V c 0 t) (blk1 V c 1 t) (blk1 V c 2 t) (blk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%eo, H4⟩, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverLastS c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO c _ _ _ _ _ _ _ _ _ _ _ _ _ _ _ _ _ _ _ _)
    · rw [Dat.leavesExact_idle (dat1 V c) 4 t (idle1_out t (fun h => h1 ((isLast_iff t).mp h))) (noFlush1_out t (fun h => h1 ((isLast_iff t).mp h)))]
      rw [accAt1_mid V c t h0 h1]
      unfold accMid scopedWith; (try dsimp only)
      rw [dat1_Phi_castSucc V c t, carried_pos V c _ _ hz]; unfold scopedWith
      iintro ⟨⟨⟨HA, HB, HC, HD, HS⟩, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (fun h => h0 ((isFirst_iff t).mp h)) (fun h => h1 ((isLast_iff t).mp h)) (blk1 V c 0 t) (blk1 V c 1 t) _).2 _ _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HA HB HC HD HS Hg]
      · isplitr [Hg]
        · isplitl [HA]; · iexact HA
          isplitl [HB]; · iexact HB
          isplitl [HC]; · iexact HC
          isplitl [HD]; · iexact HD
          unfold owns; iexists _; isplitr
          swap; · iexact HS
          ipureintro; exact View.read_writes_of_cover _ _ _ _ _ (coverMid c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation of the second pipeline, at every point. -/
theorem obligation1 (c : Dev nD) : BodyObligation (dat1 (F := F) V c) (defs₀ (F := F)) Variants.none () Set.univ := fun t => by
  rw [bigSep_W1, bigSep_W1]
  exact body1_at V c t

/-- What the launch hands the region is the invariant before the first point. -/
theorem enter1 (c : Dev nD) : Pipeline.ΦA spec1 c ⊢ (dat1 V c).Φ 0 := by
  rw [show (dat1 V c).Φ 0 = carried V c 0 (Nat.zero_le _) from rfl, carried_zero V c 0 _ rfl]
  try exact Idealize.SL.BI.Entails.refl _

/-- After the last point the invariant gives the plain one back: the accumulator's contents are forgotten. -/
theorem leave1 (c : Dev nD) : (dat1 V c).Φ (Fin.last cfg1.N) ⊢ Pipeline.ΦA spec1 c := by
  rw [show (dat1 V c).Φ (Fin.last cfg1.N) = carried V c (Fin.last cfg1.N).val (Nat.le_of_lt_succ (Fin.last cfg1.N).isLt) from rfl,
    carried_pos V c _ _ (by rw [Fin.val_last]; have : cfg1.N = 256 := N_1; omega), plain1_eq]
  unfold scopedWith
  iintro ⟨⟨HA, HB, HC, HD, HS⟩, Hg⟩
  isplitr [Hg]
  · isplitl [HA]; · iexact HA
    isplitl [HB]; · iexact HB
    isplitl [HC]; · iexact HC
    isplitl [HD]; · iexact HD
    iexists _; iexact HS
  iexact Hg

end Cert.KernelIdeal.Fr

end
-- ==== Proof.KernelIdealRun.lean ====
/-
  The whole run of the program, at any float instance: @main is the first kernel region, three host reshapes, the
  second kernel region and one host reshape, and every weakly fair execution of it from any memory terminates without
  a fault in a state whose unscoped buffers hold, by name, what those four segments leave one after the other.

  The contents at the five boundaries: the launch memory; then the first region's arrays at what its write-backs
  leave and every other buffer as before; then the three reshapes applied; then the second region's arrays at what
  its write-backs leave; then the last reshape applied.  No segment writes an argument array, so each argument reads
  back through the five steps to its launch contents: that is the frame claim.  The result buffer's final contents
  are named by the same post, which is what a value claim reads.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import proofs.«109016_j48180943126805_2_alg».proof.Proof.Gen.KernelIdeal.Regions
import proofs.«109016_j48180943126805_2_alg».proof.Proof.KernelIdealRegion0
import proofs.«109016_j48180943126805_2_alg».proof.Proof.KernelIdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev at0 : Dev nD → Valuation τ sig (Elt F) := fun c b => (s₀ m ρ).mem ((c : Dev nD), b)
/-- The same read at the TensorCore's references: what the first region is entered with. -/
abbrev in0 : (c : Dev nD) → (b : Ref sig .tc) → Buf (Elt F) ((c : Thread nD τ).loc b) := fun c b => at0 m ρ c b
/-- After the first region: its arrays at what the pipeline leaves, every other buffer as entered. -/
def at1 (c : Dev nD) : Valuation τ sig (Elt F) :=
  Pipeline.withArrays spec0 c (at0 m ρ c) fun w => (dat0 (in0 m ρ) c).arrAt w cfg0.N
theorem at1_arr (c : Dev nD) (w : Fin cfg0.W) :
    at1 m ρ c (Proc.devRef .tc (Pipeline.arrRef spec0 w)) = (dat0 (in0 m ρ) c).arrAt w cfg0.N := by
  unfold at1; exact Pipeline.withArrays_arr spec0 launch0.win.arr_inj c _ _ w
theorem at1_of_ne (c : Dev nD) (b : Ref sig .tc) (hb : ∀ w, Pipeline.arrRef spec0 w ≠ b) :
    at1 m ρ c (Proc.devRef .tc b) = at0 m ρ c (Proc.devRef .tc b) := by
  unfold at1; exact Pipeline.withArrays_of_ne spec0 c _ _ b hb
abbrev out0 : (c : Dev nD) → (b : Ref sig .tc) → Buf (Elt F) ((c : Thread nD τ).loc b) := fun c b => at1 m ρ c b
theorem exit0_arr (c : Dev nD) (w : Fin cfg0.W) : (dat0 (in0 m ρ) c).arrAt w cfg0.N = out0 m ρ c (Pipeline.arrRef spec0 w) :=
  (at1_arr m ρ c w).symm
theorem exit0_rest (c : Dev nD) : ∀ b, b ∉ Finset.univ.image (Pipeline.arrRef spec0) → out0 m ρ c b = in0 m ρ c b :=
  fun b hb => at1_of_ne m ρ c b fun w e => hb (Finset.mem_image.mpr ⟨w, Finset.mem_univ _, e⟩)

/-- After the three reshapes: what the second region is entered with. -/
abbrev at2 : Dev nD → Valuation τ sig (Elt F) := fun c => StableHlo.after hostOps1 (at1 m ρ c)
abbrev in1 : (c : Dev nD) → (b : Ref sig .tc) → Buf (Elt F) ((c : Thread nD τ).loc b) := fun c b => at2 m ρ c b
/-- After the second region. -/
def at3 (c : Dev nD) : Valuation τ sig (Elt F) :=
  Pipeline.withArrays spec1 c (at2 m ρ c) fun w => (dat1 (in1 m ρ) c).arrAt w cfg1.N
theorem at3_arr (c : Dev nD) (w : Fin cfg1.W) :
    at3 m ρ c (Proc.devRef .tc (Pipeline.arrRef spec1 w)) = (dat1 (in1 m ρ) c).arrAt w cfg1.N := by
  unfold at3; exact Pipeline.withArrays_arr spec1 launch1.win.arr_inj c _ _ w
theorem at3_of_ne (c : Dev nD) (b : Ref sig .tc) (hb : ∀ w, Pipeline.arrRef spec1 w ≠ b) :
    at3 m ρ c (Proc.devRef .tc b) = at2 m ρ c (Proc.devRef .tc b) := by
  unfold at3; exact Pipeline.withArrays_of_ne spec1 c _ _ b hb
abbrev out1 : (c : Dev nD) → (b : Ref sig .tc) → Buf (Elt F) ((c : Thread nD τ).loc b) := fun c b => at3 m ρ c b
theorem exit1_arr (c : Dev nD) (w : Fin cfg1.W) : (dat1 (in1 m ρ) c).arrAt w cfg1.N = out1 m ρ c (Pipeline.arrRef spec1 w) :=
  (at3_arr m ρ c w).symm
theorem exit1_rest (c : Dev nD) : ∀ b, b ∉ Finset.univ.image (Pipeline.arrRef spec1) → out1 m ρ c b = in1 m ρ c b :=
  fun b hb => at3_of_ne m ρ c b fun w e => hb (Finset.mem_image.mpr ⟨w, Finset.mem_univ _, e⟩)
/-- After the last reshape: the end. -/
abbrev at4 : Dev nD → Valuation τ sig (Elt F) := fun c => StableHlo.after hostOps2 (at3 m ρ c)

/-! ## The arguments end as launched -/

/-- `main_arg0` ends as launched: no host operation writes it and no region may change it. -/
theorem at4_main_arg0 (c : Dev nD) : at4 m ρ c (Proc.devRef .tc main_arg0) = m ((c : Thread nD τ).loc main_arg0) :=
  calc at4 m ρ c (Proc.devRef .tc main_arg0)
    _ = at3 m ρ c (Proc.devRef .tc main_arg0) := StableHlo.after_of_writes_sub hostOps2 _ hostOps2_writes (r := main_arg0) (by decide)
    _ = at2 m ρ c (Proc.devRef .tc main_arg0) := at3_of_ne m ρ c main_arg0 (by decide)
    _ = at1 m ρ c (Proc.devRef .tc main_arg0) := StableHlo.after_of_writes_sub hostOps1 _ hostOps1_writes (r := main_arg0) (by decide)
    _ = at0 m ρ c (Proc.devRef .tc main_arg0) := at1_of_ne m ρ c main_arg0 (by decide)
    _ = m ((c : Thread nD τ).loc main_arg0) := rfl

/-- `main_arg1` ends as launched: no host operation writes it and no region may change it. -/
theorem at4_main_arg1 (c : Dev nD) : at4 m ρ c (Proc.devRef .tc main_arg1) = m ((c : Thread nD τ).loc main_arg1) :=
  calc at4 m ρ c (Proc.devRef .tc main_arg1)
    _ = at3 m ρ c (Proc.devRef .tc main_arg1) := StableHlo.after_of_writes_sub hostOps2 _ hostOps2_writes (r := main_arg1) (by decide)
    _ = at2 m ρ c (Proc.devRef .tc main_arg1) := at3_of_ne m ρ c main_arg1 (by decide)
    _ = at1 m ρ c (Proc.devRef .tc main_arg1) := StableHlo.after_of_writes_sub hostOps1 _ hostOps1_writes (r := main_arg1) (by decide)
    _ = at0 m ρ c (Proc.devRef .tc main_arg1) := (at1_arr m ρ c 0).trans (((dat0 (in0 m ρ) c).arrAt_in 0 rfl _).trans (dat0_A (in0 m ρ) c 0))
    _ = m ((c : Thread nD τ).loc main_arg1) := rfl

/-- `main_arg2` ends as launched: no host operation writes it and no region may change it. -/
theorem at4_main_arg2 (c : Dev nD) : at4 m ρ c (Proc.devRef .tc main_arg2) = m ((c : Thread nD τ).loc main_arg2) :=
  calc at4 m ρ c (Proc.devRef .tc main_arg2)
    _ = at3 m ρ c (Proc.devRef .tc main_arg2) := StableHlo.after_of_writes_sub hostOps2 _ hostOps2_writes (r := main_arg2) (by decide)
    _ = at2 m ρ c (Proc.devRef .tc main_arg2) := at3_of_ne m ρ c main_arg2 (by decide)
    _ = at1 m ρ c (Proc.devRef .tc main_arg2) := StableHlo.after_of_writes_sub hostOps1 _ hostOps1_writes (r := main_arg2) (by decide)
    _ = at0 m ρ c (Proc.devRef .tc main_arg2) := at1_of_ne m ρ c main_arg2 (by decide)
    _ = m ((c : Thread nD τ).loc main_arg2) := rfl

/-- `main_arg3` ends as launched: no host operation writes it and no region may change it. -/
theorem at4_main_arg3 (c : Dev nD) : at4 m ρ c (Proc.devRef .tc main_arg3) = m ((c : Thread nD τ).loc main_arg3) :=
  calc at4 m ρ c (Proc.devRef .tc main_arg3)
    _ = at3 m ρ c (Proc.devRef .tc main_arg3) := StableHlo.after_of_writes_sub hostOps2 _ hostOps2_writes (r := main_arg3) (by decide)
    _ = at2 m ρ c (Proc.devRef .tc main_arg3) := at3_of_ne m ρ c main_arg3 (by decide)
    _ = at1 m ρ c (Proc.devRef .tc main_arg3) := StableHlo.after_of_writes_sub hostOps1 _ hostOps1_writes (r := main_arg3) (by decide)
    _ = at0 m ρ c (Proc.devRef .tc main_arg3) := at1_of_ne m ρ c main_arg3 (by decide)
    _ = m ((c : Thread nD τ).loc main_arg3) := rfl

/-! ## The proof data family and what rides beside the buffers -/

/-- Both pipelines' proof data, each at its region's entry contents. -/
def data : (p : Fin 2) → (c : Dev nD) → Dat τ (Elt F) Unit ℕ (UR sig nD τ) ℕ (Pipeline.pin (pcfgs (F := F)) adm p) c
  | ⟨0, _⟩ => fun c => dat0 (in0 m ρ) c
  | ⟨1, _⟩ => fun c => dat1 (in1 m ρ) c
abbrev noVariants : Variants := Variants.none
/-- No core owes another anything: no level is assigned. -/
abbrev noLevels : GSem nD τ sig → Finset Unit := fun _ => ∅
abbrev noLevel : GSem nD τ sig → Unit → ℕ := fun _ _ => 0
/-- What rides beside the buffers through every segment: the generator register at some state and the core's dues, at
    nothing. -/
abbrev riding (c : Dev nD) : sProp 𝕄 := iprop((∃ r, prngReg c r) ∗ ∃ W, owes (c : Thread nD τ) (0 : CellTallies nD τ sig Unit) W)
/-- A stretch of host operations as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
/-- The last thread state without the dues. -/
abbrev atEnd (c : Dev nD) : sProp 𝕄 := iprop(StableHlo.held (c : Thread nD τ) (Pipeline.ucRefs τ sig) (at4 m ρ c) ∗ ∃ r, prngReg c r)

/-- The last stretch's thread state is the end state beside the core's dues. -/
theorem end_split (c : Dev nD) :
    iprop(StableHlo.held (c : Thread nD τ) (Pipeline.ucRefs τ sig) (at4 m ρ c) ∗ riding c)
      ⊢ iprop(atEnd m ρ c ∗ ∃ W, owes (c : Thread nD τ) (0 : CellTallies nD τ sig Unit) W) := by
  iintro ⟨Hh, Hp, HO⟩
  isplitr [HO]
  · isplitl [Hh]; · iexact Hh
    iexact Hp
  iexact HO

/-- After the last point the second region's invariant gives back the scoped buffers nobody stages and the generator
    register. -/
theorem leave1_plain (V : (c : Dev nD) → (b : Ref sig .tc) → Buf (Elt F) ((c : Thread nD τ).loc b)) (c : Dev nD) :
    (dat1 V c).Φ (Fin.last cfg1.N) ⊢ iprop(Pipeline.scopedRest spec1 c ∗ ∃ r, prngReg c r) := by
  have h := leave1 V c
  unfold Pipeline.ΦA at h
  exact h

/-! ## The regions as segments -/

set_option backward.isDefEq.respectTransparency.types false in
/-- Region 0 as a segment: entered with every unscoped buffer at `at0`, left with them at `at1`.  Its
    windows' arrays are split out of the unscoped buffers on entry and put back at their final contents on exit; the
    generator register goes into the region's invariant and comes back; nothing is owed; the kernel has no semaphore
    of its own. -/
def reg0 : Pipeline.RegionSeg (pcfgs (F := F)) adm (data m ρ) () defs₀ noVariants noLevels noLevel 0 where
  win := launch0.win.to₀
  block_pos := launch0.block_pos
  stage_whole := launch0.stage_whole
  K := PEmpty
  osem k := k.elim
  ho := Pipeline.OwnSemFacts.none _
  hbody c := (obligation0 (in0 m ρ) c).loose
  hwaits := Pipeline.hwaits_of_owed_zero _ _ _ _ noLevels noLevel 0 fun _ _ => rfl
  pre c := iprop(StableHlo.held (c : Thread nD τ) (Pipeline.ucRefs τ sig) (at0 m ρ c) ∗ riding c)
  post c := iprop(StableHlo.held (c : Thread nD τ) (Pipeline.ucRefs τ sig) (at1 m ρ c) ∗ riding c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) adm (data m ρ) launch0.win launch0.arr_whole c
      ((data m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (data m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (data m ρ) ((data m ρ 0 c).share_full fun _ => rfl)
      (in0 m ρ c) (out0 m ρ c) ((data m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `at2`, left with them at `at3`.  Its
    windows' arrays are split out of the unscoped buffers on entry and put back at their final contents on exit; the
    generator register goes into the region's invariant and comes back; nothing is owed; the kernel has no semaphore
    of its own. -/
def reg1 : Pipeline.RegionSeg (pcfgs (F := F)) adm (data m ρ) () defs₀ noVariants noLevels noLevel 1 where
  win := launch1.win.to₀
  block_pos := launch1.block_pos
  stage_whole := launch1.stage_whole
  K := PEmpty
  osem k := k.elim
  ho := Pipeline.OwnSemFacts.none _
  hbody c := (obligation1 (in1 m ρ) c).loose
  hwaits := Pipeline.hwaits_of_owed_zero _ _ _ _ noLevels noLevel 1 fun _ _ => rfl
  pre c := iprop(StableHlo.held (c : Thread nD τ) (Pipeline.ucRefs τ sig) (at2 m ρ c) ∗ riding c)
  post c := iprop(StableHlo.held (c : Thread nD τ) (Pipeline.ucRefs τ sig) (at3 m ρ c) ∗ riding c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) adm (data m ρ) launch1.win launch1.arr_whole c
      ((data m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hleave : (data m ρ 1 c).Φ (Fin.last _) ⊢ iprop(Pipeline.scopedRest spec1 c ∗ ∃ r, prngReg c r) := leave1_plain (in1 m ρ) c
    iintro H
    ihave H2 := hleave $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (data m ρ) ((data m ρ 1 c).share_full fun _ => rfl)
      (in1 m ρ c) (out1 m ρ c) ((data m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev parts : List (Pipeline.Seg (pcfgs (F := F)) adm (data m ρ) () defs₀ noVariants noLevels noLevel) :=
  [ .region (reg0 m ρ),
    .host (stretch hostOps1 hostOps1_sub hostOps1_fresh (at1 m ρ)),
    .region (reg1 m ρ),
    .host (stretch hostOps2 hostOps2_sub hostOps2_fresh (at3 m ρ)) ]
/-- @main IS the run of the segments. -/
theorem main_is_parts (c : Dev nD) : main (F := F) c = Pipeline.Seg.run (parts m ρ) := (main_chain c).trans (by chain_rfl)

set_option backward.isDefEq.respectTransparency.types false in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at4 m ρ c b) :=
  Pipeline.θ_run_regions_kit (pcfgs (F := F)) adm (data m ρ) () cellOf_inj emb₁ defs₀ noVariants noLevels noLevel m ρ main (parts m ρ)
    (fun c Q => by rw [main_is_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ riding c)) (Tₙ := atEnd m ρ)
    (hch := ⟨fun _ => .rfl, fun _ => .rfl, fun _ => .rfl, fun _ => .rfl, fun c => end_split m ρ c⟩)
    (hinit := by
      refine Pipeline.initEach noLevels noLevel fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m ρ c b)
    (hfin := fun c s' => by
      iintro ⟨⟨Hh, -⟩, HSI⟩
      unfold StableHlo.held
      imodintro
      iapply (pointsTo_read_all (Pipeline.ucRefs τ sig) (fun b => (((c : Thread nD τ)).1, b)) (at4 m ρ c) s')
      isplitl [Hh] <;> iassumption)
    (hQ := fun s h c => h c)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the run terminates, faults nowhere, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (held_ref main_arg0 (by decide))).trans (at4_main_arg0 m ρ c),
     (h c _ (held_ref main_arg1 (by decide))).trans (at4_main_arg1 m ρ c),
     (h c _ (held_ref main_arg2 (by decide))).trans (at4_main_arg2 m ρ c),
     (h c _ (held_ref main_arg3 (by decide))).trans (at4_main_arg3 m ρ c)⟩) (run_all m ρ)

end Cert.KernelIdeal.Fr

end
-- ==== Proof.Reshapes.lean ====
/-
  The host's reshapes, read at an index.

  A reshape keeps the row-major order of the elements.  So the [4, 2048, 4096] input read as [8192, 4096] has at row
  m the entries of (m / 2048, m % 2048); a vector of 4096 entries and a column of 4096 entries read as one row of 4096
  have at (0, o) the entry o; and the [8192, 4096] result read as [4, 2048, 4096] has at (a, t) the row a * 2048 + t.
  The host operations before the second kernel leave these casts of the program's arguments, the one after it the cast of
  the kernel's result.
-/
import proofs.«109016_j48180943126805_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.ValueIdx

section Casts
variable {α : Type}

/-- [4, 2048, 4096] read as [8192, 4096], at (m, i): the entry (m / 2048, m % 2048, i). -/
theorem cast_rows (x : S4x2048x4096.Idx → α) (h : S4x2048x4096.ShapeCasts S8192x4096) (m : Fin 8192) (i : Fin 4096) :
    shapeCast S8192x4096 x h (ix2 m i)
      = x (ix3 (⟨m.val / 2048, by have := m.isLt; omega⟩ : Fin 4) (⟨m.val % 2048, by omega⟩ : Fin 2048) i) := by
  refine shapeCast_apply x h _ _ ?_
  rw [Shape.rowMajor_val_three, Shape.rowMajor_val_two]
  show (m.val / 2048 * 2048 + m.val % 2048) * 4096 + i.val = m.val * 4096 + i.val
  have := Nat.div_add_mod' m.val 2048
  rw [this]

/-- [4096] read as [1, 4096], at (0, o): the entry o. -/
theorem cast_vec_row (b : S4096.Idx → α) (h : S4096.ShapeCasts S1x4096) (z : Fin 1) (o : Fin 4096) :
    shapeCast S1x4096 b h (ix2 z o) = b (ix1 o) := by
  refine shapeCast_apply b h _ _ ?_
  rw [Shape.rowMajor_val_one, Shape.rowMajor_val_two]
  show o.val = z.val * 4096 + o.val
  have := z.isLt
  omega

/-- [4096, 1] read as [1, 4096], at (0, o): the entry (o, 0). -/
theorem cast_col_row (s : S4096x1.Idx → α) (h : S4096x1.ShapeCasts S1x4096) (z z' : Fin 1) (o : Fin 4096) :
    shapeCast S1x4096 s h (ix2 z o) = s (ix2 o z') := by
  refine shapeCast_apply s h _ _ ?_
  rw [Shape.rowMajor_val_two, Shape.rowMajor_val_two]
  show o.val * 1 + z'.val = z.val * 4096 + o.val
  have := z.isLt
  have := z'.isLt
  omega

/-- [8192, 4096] read as [4, 2048, 4096], at (a, t, o): the entry (a * 2048 + t, o). -/
theorem cast_unrows (y : S8192x4096.Idx → α) (h : S8192x4096.ShapeCasts S4x2048x4096) (a : Fin 4) (t : Fin 2048) (o : Fin 4096) :
    shapeCast S4x2048x4096 y h (ix3 a t o)
      = y (ix2 (⟨a.val * 2048 + t.val, by have := a.isLt; have := t.isLt; omega⟩ : Fin 8192) o) := by
  refine shapeCast_apply y h _ _ ?_
  rw [Shape.rowMajor_val_three, Shape.rowMajor_val_two]
  rfl

end Casts

section After
variable {F : FTy → Type} [FloatOps F]

/-- Before the second kernel its first operand holds the input read as [8192, 4096]. -/
theorem after1_v1 (W : Valuation τ sig (Elt F)) :
    (StableHlo.after (hostOps1 (F := F)) W (Proc.devRef .tc main_v1) : S8192x4096.Idx → F .f32)
      = shapeCast S8192x4096 (W (Proc.devRef .tc main_arg0) : S4x2048x4096.Idx → F .f32) shapeCasts_S4x2048x4096_S8192x4096 := by
  after_results
  rfl

/-- The bias read as one row. -/
theorem after1_v2 (W : Valuation τ sig (Elt F)) :
    (StableHlo.after (hostOps1 (F := F)) W (Proc.devRef .tc main_v2) : S1x4096.Idx → F .f32)
      = shapeCast S1x4096 (W (Proc.devRef .tc main_arg3) : S4096.Idx → F .f32) shapeCasts_S4096_S1x4096 := by
  after_results
  rfl

/-- The scale column read as one row. -/
theorem after1_v3 (W : Valuation τ sig (Elt F)) :
    (StableHlo.after (hostOps1 (F := F)) W (Proc.devRef .tc main_v3) : S1x4096.Idx → F .f32)
      = shapeCast S1x4096 (W (Proc.devRef .tc main_arg2) : S4096x1.Idx → F .f32) shapeCasts_S4096x1_S1x4096 := by
  after_results
  rfl

/-- After the second kernel the result holds the kernel's [8192, 4096] output read as [4, 2048, 4096]. -/
theorem after2_v5 (W : Valuation τ sig (Elt F)) :
    (StableHlo.after (hostOps2 (F := F)) W (Proc.devRef .tc main_v5) : S4x2048x4096.Idx → F .f32)
      = shapeCast S4x2048x4096 (W (Proc.devRef .tc main_v4) : S8192x4096.Idx → F .f32) shapeCasts_S8192x4096_S4x2048x4096 := by
  after_results
  rfl

end After

end Cert.KernelIdeal.Fr

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.Spec.lean ====
/-
  The mathematics both programs compute, on the extended reals.

  A weight row `r : Fin 4096 → EReal` is coded entry by entry into {1, -1, 0}: with `alphaRow r` the mean of the
  absolute values of the row (their sum divided by 4096), an entry strictly above the mean codes to 1, an entry strictly
  below minus the mean codes to -1, every other entry to 0.  The result at (a, t, o) is the inner product of the input
  row x[a, t, ·] with the code of weight row o, times the output channel's scale s[o, 0], plus its bias b[o].
  The float words 4096.0, 1.0, -1.0 and 0.0 are kept as the values their bit patterns denote.
-/
import Idealize.ShloMosaic.PureOps.Ideal
import Idealize.ShloMosaic.Lib.ValueIdx

noncomputable section

open scoped BigOperators

namespace Cert.Tern

open Idealize.ShloMosaic Idealize.ShloMosaic.ValueIdx

/-- The mean absolute value of a row of 4096 entries: the sum of `max v (-v)` over the row, divided by 4096. -/
def alphaRow (r : Fin 4096 → EReal) : EReal :=
  Ideal.div (∑ i : Fin 4096, max (r i) (-(r i))) (Ideal.ofBits .f32 0x45800000#32)

/-- The ternary code of entry `j` of a row: 1 strictly above the row's mean absolute value, -1 strictly below its
    negative, 0 otherwise. -/
def qRow (r : Fin 4096 → EReal) (j : Fin 4096) : EReal :=
  if alphaRow r < r j then Ideal.ofBits .f32 0x3F800000#32
  else if r j < -(alphaRow r) then Ideal.ofBits .f32 0xBF800000#32
  else Ideal.ofBits .f32 0x00000000#32

/-- Row `o` of a 4096 × 4096 matrix. -/
def rowOf (w : (⟨2, ![4096, 4096]⟩ : Shape).Idx → EReal) (o : Fin 4096) : Fin 4096 → EReal := fun i => w (ix2 o i)

/-- The coded weight matrix, entry (o, i). -/
def q (w : (⟨2, ![4096, 4096]⟩ : Shape).Idx → EReal) (o i : Fin 4096) : EReal := qRow (rowOf w o) i

/-- The result at (a, t, o): the input row against the coded weight row, scaled per output channel, plus the bias. -/
def outAt (x : (⟨3, ![4, 2048, 4096]⟩ : Shape).Idx → EReal) (w : (⟨2, ![4096, 4096]⟩ : Shape).Idx → EReal)
    (s : (⟨2, ![4096, 1]⟩ : Shape).Idx → EReal) (b : (⟨1, ![4096]⟩ : Shape).Idx → EReal)
    (a : Fin 4) (t : Fin 2048) (o : Fin 4096) : EReal :=
  (∑ i : Fin 4096, x (ix3 a t i) * q w o i) * s (ix2 o (0 : Fin 1)) + b (ix1 o)

/-- The whole result array. -/
def out (x : (⟨3, ![4, 2048, 4096]⟩ : Shape).Idx → EReal) (w : (⟨2, ![4096, 4096]⟩ : Shape).Idx → EReal)
    (s : (⟨2, ![4096, 1]⟩ : Shape).Idx → EReal) (b : (⟨1, ![4096]⟩ : Shape).Idx → EReal) :
    (⟨3, ![4, 2048, 4096]⟩ : Shape).Idx → EReal :=
  fun j => outAt x w s b (j 0) (j 1) (j 2)

/-- Every entry of an array is a real number. -/
def Finite {S : Shape} (v : S.Idx → EReal) : Prop := ∀ i, ∃ r : ℝ, v i = (r : EReal)

end Cert.Tern

end
-- ==== Proof.PayQuant.lean ====
/-
  The coded row block, read at coordinates, on the extended reals.

  With alpha the mean absolute value of row r (the sum of max v (-v) over the row, divided by 4096), the stored value at
  (r, j) is the word 1.0 when alpha < v (r, j), else the word -1.0 when v (r, j) < -alpha, else the word 0.0: the two
  comparisons are the strict order of the extended reals, the selects read a decided bit, and the narrowing of the format
  is the identity.
-/
import proofs.«109016_j48180943126805_2_alg».proof.Proof.Gen.KernelIdeal.Skeleton
import proofs.«109016_j48180943126805_2_alg».proof.Proof.LibRowOps
import proofs.«109016_j48180943126805_2_alg».proof.Proof.Spec

noncomputable section

open scoped BigOperators

namespace Cert.KernelIdeal.Pay

open Idealize.ShloMosaic Idealize.ShloMosaic.ValueIdx Cert.KernelIdeal Cert.KernelIdeal.Gen

/-- The bit of "strictly greater" is set exactly when the second operand is strictly below the first. -/
theorem cmp_ogt_of_lt {x y : EReal} (h : y < x) : Ideal.cmp .ogt x y = 1#1 := by
  simp [Ideal.cmp, h]

theorem cmp_ogt_of_not_lt {x y : EReal} (h : ¬ y < x) : Ideal.cmp .ogt x y = 0#1 := by
  simp [Ideal.cmp, h]

/-- The bit of "strictly less" is set exactly when the first operand is strictly below the second. -/
theorem cmp_olt_of_lt {x y : EReal} (h : x < y) : Ideal.cmp .olt x y = 1#1 := by
  simp [Ideal.cmp, h]

theorem cmp_olt_of_not_lt {x y : EReal} (h : ¬ x < y) : Ideal.cmp .olt x y = 0#1 := by
  simp [Ideal.cmp, h]

/-- The column of the rows' mean absolute values: the lane sums of the absolute values, divided by 4096. -/
def alphaVec (v0 : Vec Ideal S256x4096 .f32) : FVec Ideal S256x1 .f32 :=
  divf (shapeCast S256x1 (multiReduction .add [1] S256 (absf v0) 0x00000000#32 reduces_S256x4096_S256 (.inl rfl) rfl)
      shapeCasts_S256_S256x1)
    (broadcast S256x1 (Scalar.ofBits .f32 0x45800000#32))

/-- Its entry of row r is the mean absolute value of the row. -/
theorem alphaVec_apply (v0 : Vec Ideal S256x4096 .f32) (r : Fin 256) (z : Fin 1) :
    alphaVec v0 (ix2 r z) = Cert.Tern.alphaRow (fun i => v0 (ix2 r i)) := by
  unfold alphaVec
  rw [divf_apply, Cert.LibRowOps.cast_a_a1, Cert.LibRowOps.sum_last2, broadcast_apply]
  rfl

/-- The coded block is two selects on the comparisons of the entry with the mean and with minus the mean. -/
theorem k0_pay1_eq (v0 : Vec Ideal S256x4096 .f32) :
    k0_pay1 (F := Ideal) v0
      = truncf .bf16
          (select (cmpf .ogt v0 (broadcastTo S256x4096 (alphaVec v0) broadcasts_S256x1_S256x4096))
            (broadcast S256x4096 (Scalar.ofBits (F := Ideal) .f32 0x3F800000#32))
            (select
              (cmpf .olt v0
                (broadcastTo S256x4096 (subf (broadcast S256x1 (Scalar.ofBits (F := Ideal) .f32 0x00000000#32)) (alphaVec v0))
                  broadcasts_S256x1_S256x4096))
              (broadcast S256x4096 (Scalar.ofBits (F := Ideal) .f32 0xBF800000#32))
              (broadcast S256x4096 (Scalar.ofBits (F := Ideal) .f32 0x00000000#32))))
          bitsLt_bf16_f32 := rfl

/-- The coded block at (r, j) is the ternary code of entry j of row r. -/
theorem pay_q (v0 : Vec Ideal S256x4096 .f32) (r : Fin 256) (j : Fin 4096) :
    k0_pay1 (F := Ideal) v0 (ix2 r j) = Cert.Tern.qRow (fun i => v0 (ix2 r i)) j := by
  rw [k0_pay1_eq, truncf_apply, select_apply, select_apply, cmpf_apply, cmpf_apply, Cert.LibRowOps.bcast_a1_ab,
    Cert.LibRowOps.bcast_a1_ab, subf_apply, alphaVec_apply, broadcast_apply, broadcast_apply, broadcast_apply,
    broadcast_apply]
  show Scalar.select (Ideal.cmp .ogt (v0 (ix2 r j)) (Cert.Tern.alphaRow fun i => v0 (ix2 r i)))
      (Ideal.ofBits .f32 0x3F800000#32)
      (Scalar.select (Ideal.cmp .olt (v0 (ix2 r j)) (Ideal.ofBits .f32 0x00000000#32 - Cert.Tern.alphaRow fun i => v0 (ix2 r i)))
        (Ideal.ofBits .f32 0xBF800000#32) (Ideal.ofBits .f32 0x00000000#32))
    = Cert.Tern.qRow (fun i => v0 (ix2 r i)) j
  rw [Ideal.ofBits_zero_f32, zero_sub]
  unfold Cert.Tern.qRow
  by_cases h1 : Cert.Tern.alphaRow (fun i => v0 (ix2 r i)) < v0 (ix2 r j)
  · rw [cmp_ogt_of_lt h1, select_one, if_pos h1]
  · rw [cmp_ogt_of_not_lt h1, select_zero, if_neg h1]
    by_cases h2 : v0 (ix2 r j) < -(Cert.Tern.alphaRow fun i => v0 (ix2 r i))
    · rw [cmp_olt_of_lt h2, select_one, if_pos h2]
    · rw [cmp_olt_of_not_lt h2, select_zero, if_neg h2]
      exact Ideal.ofBits_zero_f32.symm

end Cert.KernelIdeal.Pay

end
-- ==== Proof.QwFinal.lean ====
/-
  The array the first region leaves: the coded weight matrix.

  Point t of the 16 stages rows 256 t … 256 t + 255 of the weights (all 4096 columns) and writes back the same rows of
  the result.  The block written back is the coded block of the staged block, and the code of entry (r, j) of a block
  depends only on row r of the block, which is row 256 t + r of the weights.  So every point writes its block of ONE
  function of the weights, the matrix of the rows' ternary codes; the 16 blocks cover all 4096 rows (row o is in the block
  of point o / 256), and the array ends holding that matrix.
-/
import proofs.«109016_j48180943126805_2_alg».proof.Proof.KernelIdealRegion0
import proofs.«109016_j48180943126805_2_alg».proof.Proof.PayQuant
import proofs.«109016_j48180943126805_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The coded block is the payload of the whole staged block. -/
theorem coded_eq (x0 : Vec Ideal S256x4096 .f32) : coded x0 = k0_pay1 x0 := by
  unfold coded
  rw [View.canon_unit_zero hz0]
  simp only [View.ld_unit_zero (S := S256x4096) hz0]

/-- The matrix of the rows' ternary codes, as one function of the weights. -/
def codedAll (w : S4096x4096.Idx → EReal) : S4096x4096.Idx → EReal := fun i => Cert.Tern.q w (i 0) (i 1)

/-- The index maps over the grid: both windows' block at point t is block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point t writes back is block t of the coded matrix of the weights. -/
theorem flushed0_eq (c : Dev nD) (t : Fin cfg0.N) :
    (dat0 (F := Ideal) V c).flushed 1 t = ((cfg0.win 1).blk t).view.read (Elt Ideal) (codedAll (V c main_arg1)) := by
  show (cfg0.win 1).cut (grid0.coords t) ((dat0 V c).after 1 t) = _
  rw [dat0_after_out, coded_eq]
  obtain ⟨e0, e1, e2, e3⟩ := idx_facts0 t
  funext j
  show k0_pay1 (F := Ideal) (blk0 V c 0 t) j = codedAll (V c main_arg1) (((cfg0.win 1).blk t).view.emb j)
  have key : ∀ (r : Fin 256) (jj : Fin 4096),
      k0_pay1 (F := Ideal) (blk0 V c 0 t) (ix2 r jj) = codedAll (V c main_arg1) (((cfg0.win 1).blk t).view.emb (ix2 r jj)) := by
    intro r jj
    rw [Cert.KernelIdeal.Pay.pay_q]
    unfold codedAll Cert.Tern.q Cert.Tern.rowOf
    have hr : r.val < 256 := r.isLt
    have hjj : jj.val < 4096 := jj.isLt
    have hcol : ((cfg0.win 1).blk t).view.emb (ix2 r jj) 1 = jj := by
      apply Fin.ext
      show win0_1.index t (1 : Fin 2) * 4096 + 1 * jj.val = jj.val
      omega
    have hrow : (fun i : Fin 4096 => blk0 V c 0 t (ix2 r i))
        = fun i : Fin 4096 => V c main_arg1 (ix2 (((cfg0.win 1).blk t).view.emb (ix2 r jj) 0) i) := by
      funext i
      show V c main_arg1 (((cfg0.win 0).blk t).view.emb (ix2 r i)) = _
      congr 1
      funext a
      apply Fin.ext
      match a with
      | ⟨0, _⟩ =>
        show win0_0.index t (0 : Fin 2) * 256 + 1 * r.val = win0_1.index t (0 : Fin 2) * 256 + 1 * r.val
        omega
      | ⟨1, _⟩ =>
        show win0_0.index t (1 : Fin 2) * 4096 + 1 * i.val = i.val
        omega
    rw [hrow, hcol]
  have hj : j = ix2 (n0 := 256) (n1 := 4096) (j 0) (j 1) := eq_ix2 j
  rw [hj]
  exact key (j 0) (j 1)

/-- Every entry of the result is in the block of some point: row o is in the block of point o / 256. -/
theorem cover0 (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have ht : (i 0).val / 256 < cfg0.N := by
    show (i 0).val / 256 < grid0.N
    rw [N_0]
    omega
  refine ⟨⟨(i 0).val / 256, ht⟩, flush0_1 _, ?_⟩
  obtain ⟨e0, e1, e2, e3⟩ := idx_facts0 ⟨(i 0).val / 256, ht⟩
  show i ∈ ((View.whole main_v0).slice (win0_1.rect ⟨(i 0).val / 256, ht⟩)).set
  rw [View.set_slice_whole, Rect.mem_set_unit]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    rw [e2]
    show (i 0).val / 256 * 256 ≤ (i 0).val ∧ (i 0).val < (i 0).val / 256 * 256 + 256
    omega
  | ⟨1, _⟩ =>
    show win0_1.index ⟨(i 0).val / 256, ht⟩ (1 : Fin 2) * 4096 ≤ (i 1).val
      ∧ (i 1).val < win0_1.index ⟨(i 0).val / 256, ht⟩ (1 : Fin 2) * 4096 + 4096
    rw [e3]
    omega

/-- The array the first region leaves is the coded matrix of the weights it found. -/
theorem qw_final_all (c : Dev nD) :
    (dat0 (F := Ideal) V c).arrAt 1 cfg0.N = codedAll (V c main_arg1) :=
  (dat0 (F := Ideal) V c).arrAt_eq_of_cover 1 (codedAll (V c main_arg1)) (fun t _ => flushed0_eq V c t) cover0

/-- Entry (o, i) of that array is the ternary code of entry i of row o of the weights. -/
theorem qw_final (c : Dev nD) (o i : Fin 4096) :
    (dat0 (F := Ideal) V c).arrAt 1 cfg0.N (ix2 o i) = Cert.Tern.q (V c main_arg1) o i := by
  rw [qw_final_all]
  rfl

end Cert.KernelIdeal.Fr

end
-- ==== Proof.KernelIdealResult.lean ====
/-
  The idealized kernel's result, index by index: at the ideal instance the result buffer ends holding, at (a, t, o),
  the input row x[a, t, ·] against the coded weight row o, times scale[o, 0], plus bias[o].

  The second region's arrays are, on entry: the input reshaped to 8192 rows (row 2048 a + t is x[a, t, ·]); the coded
  weight matrix the first region wrote (the three reshapes in between do not touch it); the scale column and the bias
  vector recast as rows.  Its output array holds, at (r, o), the product row r against coded row o, scaled and biased;
  the last reshape reads row 2048 a + t of it as (a, t).
-/
import proofs.«109016_j48180943126805_2_alg».proof.Proof.KernelIdealRun
import proofs.«109016_j48180943126805_2_alg».proof.Proof.Reshapes
import proofs.«109016_j48180943126805_2_alg».proof.Proof.QwFinal
import proofs.«109016_j48180943126805_2_alg».proof.Proof.Spec
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## What the second region is entered with -/

/-- The input, as 8192 rows. -/
theorem in1_rows (c : Dev nD) :
    (in1 m ρ c main_v1 : S8192x4096.Idx → EReal)
      = shapeCast S8192x4096 (m ((c : Thread nD τ).loc main_arg0) : S4x2048x4096.Idx → EReal) shapeCasts_S4x2048x4096_S8192x4096 :=
  (after1_v1 (at1 m ρ c)).trans (congrArg (fun x => shapeCast S8192x4096 x shapeCasts_S4x2048x4096_S8192x4096) (at1_of_ne m ρ c main_arg0 (by decide)))

/-- The bias, as a row. -/
theorem in1_bias (c : Dev nD) :
    (in1 m ρ c main_v2 : S1x4096.Idx → EReal)
      = shapeCast S1x4096 (m ((c : Thread nD τ).loc main_arg3) : S4096.Idx → EReal) shapeCasts_S4096_S1x4096 :=
  (after1_v2 (at1 m ρ c)).trans (congrArg (fun x => shapeCast S1x4096 x shapeCasts_S4096_S1x4096) (at1_of_ne m ρ c main_arg3 (by decide)))

/-- The scale, as a row. -/
theorem in1_scale (c : Dev nD) :
    (in1 m ρ c main_v3 : S1x4096.Idx → EReal)
      = shapeCast S1x4096 (m ((c : Thread nD τ).loc main_arg2) : S4096x1.Idx → EReal) shapeCasts_S4096x1_S1x4096 :=
  (after1_v3 (at1 m ρ c)).trans (congrArg (fun x => shapeCast S1x4096 x shapeCasts_S4096x1_S1x4096) (at1_of_ne m ρ c main_arg2 (by decide)))

/-- The coded weights: what the first region left; the reshapes in between write other buffers. -/
theorem in1_coded (c : Dev nD) (o i : Fin 4096) :
    (in1 m ρ c main_v0 : S4096x4096.Idx → EReal) (ix2 o i) = Cert.Tern.q (m ((c : Thread nD τ).loc main_arg1)) o i := by
  have e1 : in1 m ρ c main_v0 = at1 m ρ c (Proc.devRef .tc main_v0) :=
    StableHlo.after_of_writes_sub hostOps1 _ hostOps1_writes (r := main_v0) (by decide)
  have e2 : at1 m ρ c (Proc.devRef .tc main_v0) = (dat0 (in0 m ρ) c).arrAt 1 cfg0.N := at1_arr m ρ c 1
  rw [e1, e2]
  exact qw_final (in0 m ρ) c o i

/-! ## The result -/

/-- The result buffer's final contents are the last reshape of the second region's output array. -/
theorem at4_result (c : Dev nD) :
    (at4 m ρ c (Proc.devRef .tc main_v5) : S4x2048x4096.Idx → EReal)
      = shapeCast S4x2048x4096 ((dat1 (in1 m ρ) c).arrAt 4 cfg1.N : S8192x4096.Idx → EReal) shapeCasts_S8192x4096_S4x2048x4096 :=
  (after2_v5 (at3 m ρ c)).trans (congrArg (fun x => shapeCast S4x2048x4096 x shapeCasts_S8192x4096_S4x2048x4096) (at3_arr m ρ c 4))

/-- "The second region's output array is the product with scale and bias": at (r, o) the array the region leaves
    holds row r of its first operand against row o of its second, times the scale row at o, plus the bias row at o —
    all four read off the contents the region is entered with.  (It holds: the sixteen tiles' partial sums add up to
    the whole sum, and the blocks written back at the last tiles cover the array.) -/
def ProductForm (c : Dev nD) : Prop :=
  let X : S8192x4096.Idx → EReal := in1 m ρ c main_v1
  let Q : S4096x4096.Idx → EReal := in1 m ρ c main_v0
  let S : S1x4096.Idx → EReal := in1 m ρ c main_v3
  let B : S1x4096.Idx → EReal := in1 m ρ c main_v2
  let Y : S8192x4096.Idx → EReal := (dat1 (in1 m ρ) c).arrAt 4 cfg1.N
  ∀ (r : Fin 8192) (o : Fin 4096),
    Y (ix2 r o) = (∑ n : Fin 4096, X (ix2 r n) * Q (ix2 o n)) * S (ix2 (0 : Fin 1) o) + B (ix2 (0 : Fin 1) o)

/-- Row 2048 a + t of the reshaped input is x[a, t, ·]. -/
theorem row_of (x : S4x2048x4096.Idx → EReal) (a : Fin 4) (t : Fin 2048) (n : Fin 4096) (h1 : (a.val * 2048 + t.val) / 2048 < 4)
    (h2 : (a.val * 2048 + t.val) % 2048 < 2048) :
    x (ix3 (⟨(a.val * 2048 + t.val) / 2048, h1⟩ : Fin 4) (⟨(a.val * 2048 + t.val) % 2048, h2⟩ : Fin 2048) n) = x (ix3 a t n) := by
  have ea : (⟨(a.val * 2048 + t.val) / 2048, h1⟩ : Fin 4) = a := Fin.ext (by show (a.val * 2048 + t.val) / 2048 = a.val; have := t.isLt; omega)
  have et : (⟨(a.val * 2048 + t.val) % 2048, h2⟩ : Fin 2048) = t := Fin.ext (by show (a.val * 2048 + t.val) % 2048 = t.val; have := t.isLt; omega)
  rw [ea, et]

/-- The result array, given the product form of the second region's output. -/
theorem result_of_product (c : Dev nD) (hP : ProductForm m ρ c) :
    (at4 m ρ c (Proc.devRef .tc main_v5) : S4x2048x4096.Idx → EReal)
      = Cert.Tern.out (m ((c : Thread nD τ).loc main_arg0)) (m ((c : Thread nD τ).loc main_arg1))
          (m ((c : Thread nD τ).loc main_arg2)) (m ((c : Thread nD τ).loc main_arg3)) := by
  funext j
  obtain ⟨a, t, o, rfl⟩ : ∃ (a : Fin 4) (t : Fin 2048) (o : Fin 4096), j = ix3 a t o := ⟨j 0, j 1, j 2, eq_ix3 j⟩
  have hP2 := hP
  unfold ProductForm at hP2
  dsimp only at hP2
  rw [at4_result, cast_unrows, hP2]
  show _ = Cert.Tern.outAt _ _ _ _ a t o
  unfold Cert.Tern.outAt
  rw [in1_scale, in1_bias, cast_col_row _ _ _ (0 : Fin 1), cast_vec_row]
  refine congrArg₂ (· + ·) (congrArg₂ (· * ·) (Finset.sum_congr rfl fun n _ => ?_) rfl) rfl
  rw [in1_coded, in1_rows, cast_rows, row_of (m ((c : Thread nD τ).loc main_arg0)) a t n]

end Cert.KernelIdeal.Fr

end
-- ==== Proof.KernelIdealPieces1.lean ====
/-
  The second kernel region: what each case's stores leave, as the body's payloads.

  Every store of the body writes a whole 1024 × 2048 block at offsets zero, so the contents a case leaves are the
  payload of the last store into that buffer.  A first tile zero-fills the accumulator and then adds this tile's
  product to what the fill left; a middle tile adds it to what the point before left; a last tile does the same
  and stores the accumulator it has just written, scaled and shifted, into the output block.  A load of a whole
  buffer at offsets zero reads its contents.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import proofs.«109016_j48180943126805_2_alg».proof.Proof.KernelIdealRuns1
import proofs.«109016_j48180943126805_2_alg».proof.Proof.KernelIdealRegion1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-block access, as the function the access lemmas ask for. -/
theorem hz2 : (![0, 0] : Fin 2 → ℕ) = fun _ => 0 := by
  funext a; match a with | ⟨0, _⟩ => rfl | ⟨1, _⟩ => rfl

/-- A first tile leaves this tile's product added to the zero fill. -/
theorem accFirst_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : isFirst i) (h1 : ¬isLast i)
    (x0 : Vec F S1024x256 .f32) (x1 : Vec F S2048x256 .bf16) :
    accFirst c i arg3 harg3 arg4 harg4 arg5 harg5 arg6 harg6 arg7 harg7 arg8 harg8 h0 h1 x0 x1 = k1_pay2 x0 (k1_pay1 (F := F)) x1 := by
  unfold accFirst
  rw [View.read_writes_eq_canon _ _ _ (coverFirst c i arg3 harg3 arg4 harg4 arg5 harg5 arg6 harg6 arg7 harg7 arg8 harg8 h0 h1 x0 x1)]
  unfold runFirst
  dsimp only
  sl_unfold_words
  rw [View.canon_cons_unit_zero hz2, View.readCov_unit_zero arg8.view hz2]
  simp only [View.readAt_eq_ld, harg3.read_unread, harg4.read_unread,
    View.ld_unit_zero (S := S1024x256) hz2, View.ld_unit_zero (S := S2048x256) hz2]

/-- A middle tile leaves this tile's product added to what the point before left. -/
theorem accMid_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : ¬isLast i)
    (x0 : Vec F S1024x256 .f32) (x1 : Vec F S2048x256 .bf16) (xs : Vec F S1024x2048 .f32) :
    accMid c i arg3 harg3 arg4 harg4 arg5 harg5 arg6 harg6 arg7 harg7 arg8 harg8 h0 h1 x0 x1 xs = k1_pay2 x0 xs x1 := by
  unfold accMid
  rw [View.read_writes_eq_canon _ _ _ (coverMid c i arg3 harg3 arg4 harg4 arg5 harg5 arg6 harg6 arg7 harg7 arg8 harg8 h0 h1 x0 x1 xs)]
  unfold runMid
  dsimp only
  sl_unfold_words
  rw [View.canon_unit_zero hz2]
  simp only [View.readAt_eq_ld, harg3.read_unread, harg4.read_unread, harg8.read_unread,
    View.ld_unit_zero (S := S1024x256) hz2, View.ld_unit_zero (S := S2048x256) hz2, View.ld_unit_zero (S := S1024x2048) hz2]

/-- A last tile leaves, in the accumulator, this tile's product added to what the point before left, -/
theorem accLast_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) :
    accLast c i arg3 harg3 arg4 harg4 arg5 harg5 arg6 harg6 arg7 harg7 arg8 harg8 h0 h1 x0 x1 x2 x3 xs = k1_pay2 x0 xs x1 := by
  unfold accLast
  rw [View.read_writes_eq_canon _ _ _ (coverLastS c i arg3 harg3 arg4 harg4 arg5 harg5 arg6 harg6 arg7 harg7 arg8 harg8 h0 h1 x0 x1 x2 x3 xs)]
  unfold runLast
  dsimp only
  sl_unfold_words
  rw [View.canon_unit_zero hz2]
  simp only [View.readAt_eq_ld, harg3.read_unread, harg4.read_unread, harg8.read_unread,
    View.ld_unit_zero (S := S1024x256) hz2, View.ld_unit_zero (S := S2048x256) hz2, View.ld_unit_zero (S := S1024x2048) hz2]

/-- and, in the output block, that accumulator times the scale row plus the bias row. -/
theorem outLast_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (h0 : ¬isFirst i) (h1 : isLast i)
    (x0 : Vec F S1024x256 .f32) (x1 : Vec F S2048x256 .bf16) (x2 x3 : Vec F S1x2048 .f32) (xs : Vec F S1024x2048 .f32) :
    outLast c i arg3 harg3 arg4 harg4 arg5 harg5 arg6 harg6 arg7 harg7 arg8 harg8 h0 h1 x0 x1 x2 x3 xs = k1_pay3 (k1_pay2 x0 xs x1) x2 x3 := by
  unfold outLast
  rw [View.read_writes_eq_canon _ _ _ (coverLastO c i arg3 harg3 arg4 harg4 arg5 harg5 arg6 harg6 arg7 harg7 arg8 harg8 h0 h1 x0 x1 x2 x3 xs)]
  unfold runLast
  dsimp only
  sl_unfold_words
  rw [View.canon_unit_zero hz2, View.readCov_unit_zero arg8.view hz2]
  simp only [View.readAt_eq_ld, harg3.read_unread, harg4.read_unread, harg5.read_unread, harg6.read_unread, harg8.read_unread,
    View.ld_unit_zero (S := S1024x256) hz2, View.ld_unit_zero (S := S2048x256) hz2, View.ld_unit_zero (S := S1024x2048) hz2,
    View.ld_unit_zero (S := S1x2048) hz2]

end Cert.KernelIdeal.Fr

end
-- ==== Proof.KernelIdealSteps1.lean ====
/-
  The second kernel region: the accumulator and the output block after a point, as the body's payloads of the point's
  input blocks, at any float instance.

  After a first tile the accumulator is this tile's product added to the zero fill; after any other tile it is this
  tile's product added to what the point before left; after a last tile the output block is the accumulator just
  written, times the scale block plus the bias block.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import proofs.«109016_j48180943126805_2_alg».proof.Proof.KernelIdealRuns1
import proofs.«109016_j48180943126805_2_alg».proof.Proof.KernelIdealRegion1
import proofs.«109016_j48180943126805_2_alg».proof.Proof.KernelIdealPieces1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The position before a point that is not the first of its output block is on the grid. -/
theorem pred_lt (t : Fin cfg1.N) : t.val - 1 < cfg1.N := Nat.lt_of_le_of_lt (Nat.sub_le _ _) t.isLt

/-- After a first tile: this tile's product added to the zero fill. -/
theorem acc_first (c : Dev nD) (t : Fin cfg1.N) (h0 : t.val % 16 = 0) :
    (accAt1 V c t.val t.isLt).2 = k1_pay2 (blk1 V c 0 t) (k1_pay1 (F := F)) (blk1 V c 1 t) := by
  have h1 : ¬t.val % 16 = 15 := by omega
  rw [accAt1_first V c t h0 h1]
  dsimp only
  exact accFirst_eq c (grid1.coords t) (ms1_0 t) (hs1_0 t) (ms1_1 t) (hs1_1 t) (ms1_2 t) (hs1_2 t) (ms1_3 t) (hs1_3 t) (ms1_4 t) (hs1_4 t) accM (Memref.isWhole_whole _) ((isFirst_iff t).mpr h0) (fun h => h1 ((isLast_iff t).mp h)) (blk1 V c 0 t) (blk1 V c 1 t)

/-- After any other tile: this tile's product added to what the point before left. -/
theorem acc_next (c : Dev nD) (t : Fin cfg1.N) (h0 : ¬t.val % 16 = 0) :
    (accAt1 V c t.val t.isLt).2 = k1_pay2 (blk1 V c 0 t) (accAt1 V c (t.val - 1) (pred_lt t)).2 (blk1 V c 1 t) := by
  by_cases h1 : t.val % 16 = 15
  · rw [accAt1_last V c t h0 h1]
    dsimp only
    exact accLast_eq c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (blk1 V c 0 t) (blk1 V c 1 t) (blk1 V c 2 t) (blk1 V c 3 t) (accAt1 V c (t.val - 1) (pred_lt t)).2
  · rw [accAt1_mid V c t h0 h1]
    dsimp only
    exact accMid_eq c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) (fun h => h1 ((isLast_iff t).mp h)) (blk1 V c 0 t) (blk1 V c 1 t) (accAt1 V c (t.val - 1) (pred_lt t)).2

/-- After a last tile the output block is the accumulator just written, scaled and shifted. -/
theorem out_last (c : Dev nD) (t : Fin cfg1.N) (h1 : t.val % 16 = 15) :
    (accAt1 V c t.val t.isLt).1 = k1_pay3 (accAt1 V c t.val t.isLt).2 (blk1 V c 2 t) (blk1 V c 3 t) := by
  have h0 : ¬t.val % 16 = 0 := by omega
  rw [acc_next V c t h0, accAt1_last V c t h0 h1]
  dsimp only
  exact outLast_eq c (grid1.coords t) (ms1_0 t) (hs1_0 t) (ms1_1 t) (hs1_1 t) (ms1_2 t) (hs1_2 t) (ms1_3 t) (hs1_3 t) (ms1_4 t) (hs1_4 t) accM (Memref.isWhole_whole _) (fun h => h0 ((isFirst_iff t).mp h)) ((isLast_iff t).mpr h1) (blk1 V c 0 t) (blk1 V c 1 t) (blk1 V c 2 t) (blk1 V c 3 t) (accAt1 V c (t.val - 1) (pred_lt t)).2

end Cert.KernelIdeal.Fr

end
-- ==== Proof.LibRowRowProduct.lean ====
/-
  A matrix product that contracts the SECOND axis of both operands, read at coordinates.

  For `lhs` of extents [A, K] and `rhs` of extents [B, K], the product that pairs row `a` of the first with row `b` of
  the second — `lhs · rhsᵀ` — reads at `(a, b)`, over the extended reals, the sum over `k` of `lhs (a, k) · rhs (b, k)`:
  stated for the accumulating product into a zero accumulator and for the host's product. The dimension record's two
  non-contracted coordinates are taken as hypotheses; at a literal record they hold by computation.
-/
import Idealize.ShloMosaic.PureOps.Ideal.Laws
import Idealize.ShloMosaic.Lib.ValueIdx
import Idealize.ShloMosaic.Lib.Pipeline.Value

noncomputable section

namespace Cert.LibRowRowProduct

open Idealize.ShloMosaic Idealize.ShloMosaic.ValueIdx

section Dot
variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Dot

end Cert.LibRowRowProduct

end
-- ==== Proof.PayMatmul.lean ====
/-
  The accumulating product of one K-tile, read at coordinates, on the extended reals.

  The stored value at (a, b) is the accumulator there plus the sum over the 256 columns k of the tile of
  x (a, k) · q (b, k): the product contracts the second axis of both operands into a zero accumulator, the casts
  to the same shape and the narrowing of the format are the identity on the extended reals.
-/
import proofs.«109016_j48180943126805_2_alg».proof.Proof.Gen.KernelIdeal.Skeleton
import proofs.«109016_j48180943126805_2_alg».proof.Proof.LibRowRowProduct

noncomputable section

open scoped BigOperators

namespace Cert.KernelIdeal.Pay

open Idealize.ShloMosaic Idealize.ShloMosaic.ValueIdx Cert.KernelIdeal Cert.KernelIdeal.Gen

/-- The contraction of the tile's dimension record has rank one. -/
theorem dot_rank : dot_S1024x256_S2048x256_S1024x2048_1_1_0_0_n_n.contr.rank = 1 := rfl

/-- Its one extent is the tile width. -/
theorem dot_size : dot_S1024x256_S2048x256_S1024x2048_1_1_0_0_n_n.contr.size ⟨0, by rw [dot_rank]; omega⟩ = 256 := rfl

/-- The product of the tile at (a, b): the sum over k of lhs (a, k) · rhs (b, k). -/
theorem tile_matmul_apply (lhs : FVec Ideal S1024x256 .bf16) (rhs : FVec Ideal S2048x256 .bf16) (a : Fin 1024) (b : Fin 2048) :
    matmul dot_S1024x256_S2048x256_S1024x2048_1_1_0_0_n_n none lhs rhs (constant S1024x2048 .f32 0x00000000#32) (ix2 a b)
      = ∑ k : Fin 256, lhs (ix2 a k) * rhs (ix2 b k) :=
  Cert.LibRowRowProduct.matmul_zero_apply (A := 1024) (K := 256) (B := 2048)
    dot_S1024x256_S2048x256_S1024x2048_1_1_0_0_n_n rfl rfl rfl rfl (fun _ _ => rfl) (fun _ _ => rfl) lhs rhs a b none

/-- The accumulating store's value at (a, b). -/
theorem pay_acc (xb : Vec Ideal S1024x256 .f32) (acc : Vec Ideal S1024x2048 .f32) (qb : Vec Ideal S2048x256 .bf16)
    (a : Fin 1024) (b : Fin 2048) :
    k1_pay2 (F := Ideal) xb acc qb (ix2 a b) = acc (ix2 a b) + ∑ k : Fin 256, xb (ix2 a k) * qb (ix2 b k) := by
  unfold k1_pay2
  simp only [shapeCast_self]
  rw [addf_apply, tile_matmul_apply]
  rfl

end Cert.KernelIdeal.Pay

end
-- ==== Proof.PayOut.lean ====
/-
  The last K-tile's store, read at coordinates, on the extended reals: the accumulator at (a, b) times the scale of
  column b plus the bias of column b; and the zero fill, which reads 0 everywhere.

  The scale and the bias are rows of one line, broadcast along the 1024 rows; casts to the same shape are the identity.
-/
import proofs.«109016_j48180943126805_2_alg».proof.Proof.Gen.KernelIdeal.Skeleton
import proofs.«109016_j48180943126805_2_alg».proof.Proof.LibRowOps

noncomputable section

namespace Cert.KernelIdeal.Pay

open Idealize.ShloMosaic Idealize.ShloMosaic.ValueIdx Cert.KernelIdeal Cert.KernelIdeal.Gen

/-- The scaled and shifted accumulator at (a, b). -/
theorem pay_out (acc : Vec Ideal S1024x2048 .f32) (sb bb : Vec Ideal S1x2048 .f32) (a : Fin 1024) (b : Fin 2048) :
    k1_pay3 (F := Ideal) acc sb bb (ix2 a b) = acc (ix2 a b) * sb (ix2 (0 : Fin 1) b) + bb (ix2 (0 : Fin 1) b) := by
  unfold k1_pay3
  simp only [shapeCast_self]
  rw [addf_apply, mulf_apply, Cert.LibRowOps.bcast_1b_ab, Cert.LibRowOps.bcast_1b_ab]

/-- The zero fill at (a, b). -/
theorem pay_zero (a : Fin 1024) (b : Fin 2048) : k1_pay1 (F := Ideal) (ix2 a b) = 0 := by
  unfold k1_pay1
  simp only [shapeCast_self]
  exact Ideal.ofBits_zero_f32

end Cert.KernelIdeal.Pay

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.AccSum.lean ====
/-
  The accumulation over the 16 K-tiles of width 256 of a row of 4096 terms, as algebra on the extended reals.

  After K-tile kk the accumulator holds the sum of the tile sums of the tiles 0, …, kk: the first tile leaves its sum over
  the zero fill, each later tile adds its sum, and after the last tile the accumulator is the sum of all 4096 terms.
  The term of offset n inside tile j is the term of index j * 256 + n.
-/
import Mathlib.Data.EReal.Basic
import proofs.«109016_j48180943126805_2_alg».proof.Proof.LibTileSum

noncomputable section

open scoped BigOperators

namespace Cert.KernelIdeal.Acc

open Cert.TileSum

/-- 4096 indices are 16 tiles of 256. -/
theorem h4096 : 4096 = 16 * 256 := by norm_num

/-- The accumulator after K-tile kk: the tile sums of the tiles 0, …, kk. -/
def accAfter (f : Fin 4096 → EReal) (kk : ℕ) : EReal := upTo (fun j : Fin 16 => ∑ n : Fin 256, f (tileIdx h4096 j n)) kk

/-- The index of offset n inside tile j is j * 256 + n. -/
theorem tileIdx_val4096 (j : Fin 16) (n : Fin 256) : (tileIdx h4096 j n).val = j.val * 256 + n.val := rfl

/-- The first K-tile leaves its sum over the zero fill. -/
theorem accAfter_zero (f : Fin 4096 → EReal) :
    accAfter f 0 = 0 + ∑ n : Fin 256, f (tileIdx h4096 (⟨0, by norm_num⟩ : Fin 16) n) := by
  unfold accAfter
  rw [upTo_zero _ (by norm_num : 0 < 16), zero_add]

/-- Each later K-tile adds its sum. -/
theorem accAfter_succ (f : Fin 4096 → EReal) (kk : ℕ) (h : kk + 1 < 16) :
    accAfter f (kk + 1) = accAfter f kk + ∑ n : Fin 256, f (tileIdx h4096 (⟨kk + 1, h⟩ : Fin 16) n) := by
  unfold accAfter
  rw [upTo_succ _ kk h]

/-- After the last K-tile the accumulator is the sum of the whole row. -/
theorem accAfter_last (f : Fin 4096 → EReal) : accAfter f 15 = ∑ i : Fin 4096, f i := by
  unfold accAfter
  rw [upTo_last _ 15 (by norm_num), sum_tiles h4096 f]

end Cert.KernelIdeal.Acc

end
-- ==== Proof.KernelIdealAcc1.lean ====
/-
  The second kernel region at the extended reals: the accumulator after each grid point.

  Point t = 32 i + 16 j + k stages the 1024 × 256 block (i, k) of the inputs X and the 2048 × 256 block (j, k) of the
  coded weights Q: an entry (a, n) of the first is X (1024 i + a, 256 k + n), an entry (b, n) of the second is
  Q (2048 j + b, 256 k + n).  By induction on the position, the accumulator at (a, b) after point t is the sum, over the
  K-tiles 0, …, k and the 256 columns of each, of X (1024 i + a, ·) · Q (2048 j + b, ·): the first tile adds its sum to the
  zero fill, each later tile adds its sum to what the point before left, and the 16 points of one output block are
  consecutive, so the point before a tile that is not the first belongs to the same rows i and j.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import proofs.«109016_j48180943126805_2_alg».proof.Proof.KernelIdealRuns1
import proofs.«109016_j48180943126805_2_alg».proof.Proof.KernelIdealRegion1
import proofs.«109016_j48180943126805_2_alg».proof.Proof.KernelIdealSteps1
import proofs.«109016_j48180943126805_2_alg».proof.Proof.PayMatmul
import proofs.«109016_j48180943126805_2_alg».proof.Proof.PayOut
import proofs.«109016_j48180943126805_2_alg».proof.Proof.AccSum
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open scoped BigOperators
open Idealize.ShloMosaic.ValueIdx Cert.TileSum Cert.KernelIdeal.Acc

/-! ## Where a block's entries sit in its array -/

/-- The printed index maps of the two matrix inputs, decided once over the grid: window 0 is at block (i, k),
    window 1 at block (j, k), for position 32 i + 16 j + k. -/
theorem idx1_0 : ∀ t : Fin cfg1.N, win1_0.index t (0 : Fin 2) = t.val / 32 ∧ win1_0.index t (1 : Fin 2) = t.val % 16 :=
  (by decide +kernel : ∀ t : Fin grid1.N, win1_0.index t (0 : Fin 2) = t.val / 32 ∧ win1_0.index t (1 : Fin 2) = t.val % 16)
theorem idx1_1 : ∀ t : Fin cfg1.N, win1_1.index t (0 : Fin 2) = t.val / 16 % 2 ∧ win1_1.index t (1 : Fin 2) = t.val % 16 :=
  (by decide +kernel : ∀ t : Fin grid1.N, win1_1.index t (0 : Fin 2) = t.val / 16 % 2 ∧ win1_1.index t (1 : Fin 2) = t.val % 16)

/-- The row of X that row `a` of the input block at position `n` is. -/
def xRow (n : ℕ) (hn : n < cfg1.N) (a : Fin 1024) : Fin 8192 :=
  ⟨1024 * (n / 32) + a.val, by have h : cfg1.N = 256 := N_1; have := a.isLt; omega⟩
/-- The row of Q that row `b` of the weight block at position `n` is. -/
def qRow (n : ℕ) (b : Fin 2048) : Fin 4096 :=
  ⟨2048 * (n / 16 % 2) + b.val, by have := b.isLt; omega⟩
/-- The K-tile of position `n`. -/
def kTile (n : ℕ) : Fin 16 := ⟨n % 16, Nat.mod_lt _ (by norm_num)⟩

section blocks

variable (V : (c : Dev nD) → (b : Ref sig .tc) → Buf (Elt F) ((c : Thread nD τ).loc b))

/-- An entry of the input block at point `t`. -/
theorem blk1_0_at (c : Dev nD) (t : Fin cfg1.N) (a : Fin 1024) (m : Fin 256) :
    blk1 V c 0 t (ix2 a m)
      = (V c main_v1 : S8192x4096.Idx → Elt F .f32) (ix2 (xRow t.val t.isLt a) (tileIdx h4096 (kTile t.val) m)) := by
  obtain ⟨e0, e1⟩ := idx1_0 t
  show (V c main_v1 : S8192x4096.Idx → Elt F .f32) (((cfg1.win 0).blk t).view.emb (ix2 a m)) = _
  refine congrArg _ (funext fun d => Fin.ext ?_)
  match d with
  | ⟨0, _⟩ => show win1_0.index t (0 : Fin 2) * 1024 + 1 * a.val = 1024 * (t.val / 32) + a.val; omega
  | ⟨1, _⟩ => show win1_0.index t (1 : Fin 2) * 256 + 1 * m.val = t.val % 16 * 256 + m.val; omega

/-- An entry of the weight block at point `t`. -/
theorem blk1_1_at (c : Dev nD) (t : Fin cfg1.N) (b : Fin 2048) (m : Fin 256) :
    blk1 V c 1 t (ix2 b m)
      = (V c main_v0 : S4096x4096.Idx → Elt F .bf16) (ix2 (qRow t.val b) (tileIdx h4096 (kTile t.val) m)) := by
  obtain ⟨e0, e1⟩ := idx1_1 t
  show (V c main_v0 : S4096x4096.Idx → Elt F .bf16) (((cfg1.win 1).blk t).view.emb (ix2 b m)) = _
  refine congrArg _ (funext fun d => Fin.ext ?_)
  match d with
  | ⟨0, _⟩ => show win1_1.index t (0 : Fin 2) * 2048 + 1 * b.val = 2048 * (t.val / 16 % 2) + b.val; omega
  | ⟨1, _⟩ => show win1_1.index t (1 : Fin 2) * 256 + 1 * m.val = t.val % 16 * 256 + m.val; omega

end blocks

/-! ## The accumulator, by induction on the position -/

section ideal

variable (V : (c : Dev nD) → (b : Ref sig .tc) → Buf (Elt Ideal) ((c : Thread nD τ).loc b))

/-- The inputs as the region finds them, an array of extended reals. -/
def inX (c : Dev nD) : S8192x4096.Idx → EReal := V c main_v1
/-- The coded weights as the region finds them. -/
def inQ (c : Dev nD) : S4096x4096.Idx → EReal := V c main_v0

/-- The 4096 terms whose sum entry (r, o) of the result accumulates: row `r` of X against row `o` of Q. -/
def rowTerms (c : Dev nD) (r : Fin 8192) (o : Fin 4096) : Fin 4096 → EReal := fun m =>
  inX V c (ix2 r m) * inQ V c (ix2 o m)

/-- This tile's product at (a, b), added to an accumulator, adds the tile sum of those terms. -/
theorem pay_tile (c : Dev nD) (t : Fin cfg1.N) (acc : Vec Ideal S1024x2048 .f32) (a : Fin 1024) (b : Fin 2048) :
    k1_pay2 (F := Ideal) (blk1 V c 0 t) acc (blk1 V c 1 t) (ix2 a b)
      = acc (ix2 a b) + ∑ m : Fin 256, rowTerms V c (xRow t.val t.isLt a) (qRow t.val b) (tileIdx h4096 (kTile t.val) m) := by
  rw [Pay.pay_acc]
  refine congrArg (_ + ·) (Finset.sum_congr rfl fun m _ => ?_)
  rw [blk1_0_at, blk1_1_at]
  rfl

/-- THE ACCUMULATOR after position `n`, at (a, b): the tile sums of the K-tiles up to this one. -/
theorem acc_at (c : Dev nD) : ∀ (n : ℕ) (hn : n < cfg1.N) (a : Fin 1024) (b : Fin 2048),
    (accAt1 (F := Ideal) V c n hn).2 (ix2 a b) = accAfter (rowTerms V c (xRow n hn a) (qRow n b)) (n % 16) := by
  intro n
  induction n using Nat.strong_induction_on with
  | _ n ih =>
    intro hn a b
    by_cases h0 : n % 16 = 0
    · rw [acc_first V c ⟨n, hn⟩ h0, pay_tile V c ⟨n, hn⟩, Pay.pay_zero, h0, accAfter_zero]
      refine congrArg (_ + ·) (Finset.sum_congr rfl fun m _ => congrArg _ (congrArg (tileIdx h4096 · m) (Fin.ext ?_)))
      show n % 16 = 0
      exact h0
    · have hN : cfg1.N = 256 := N_1
      have hp : n - 1 < cfg1.N := by omega
      have ex : xRow (n - 1) hp a = xRow n hn a :=
        Fin.ext (by show 1024 * ((n - 1) / 32) + a.val = 1024 * (n / 32) + a.val; omega)
      have eq : qRow (n - 1) b = qRow n b :=
        Fin.ext (by show 2048 * ((n - 1) / 16 % 2) + b.val = 2048 * (n / 16 % 2) + b.val; omega)
      have hk : n % 16 = (n - 1) % 16 + 1 := by omega
      have hk' : (n - 1) % 16 + 1 < 16 := by omega
      rw [acc_next V c ⟨n, hn⟩ h0, pay_tile V c ⟨n, hn⟩]
      show (accAt1 V c (n - 1) hp).2 (ix2 a b) + _ = _
      rw [ih (n - 1) (by omega) hp a b, ex, eq, hk, accAfter_succ _ _ hk']
      refine congrArg (_ + ·) (Finset.sum_congr rfl fun m _ => congrArg _ (congrArg (tileIdx h4096 · m) (Fin.ext ?_)))
      show n % 16 = (n - 1) % 16 + 1
      exact hk

end ideal

end Cert.KernelIdeal.Fr

end
-- ==== Proof.KernelIdealOut1.lean ====
/-
  The second kernel region at the extended reals: the result array after the run.

  The output block (i, j) is written back once, at the last K-tile of its 16 points (position 32 i + 16 j + 15).  What is
  written back there at (a, b) is the accumulator — by then the sum over all 4096 columns of
  X (1024 i + a, ·) · Q (2048 j + b, ·) — times the scale of column 2048 j + b plus the bias of that column: the scale and
  bias rows are staged in blocks of 2048 columns at block j.  That is the block (i, j) of ONE function of the array
  index, and the 16 written-back blocks cover the 8192 × 4096 array, so the array ends holding that function.
-/
import proofs.«109016_j48180943126805_2_alg».proof.Proof.Gen.KernelIdeal.Launch
import proofs.«109016_j48180943126805_2_alg».proof.Proof.Gen.KernelIdeal.Skeleton
import proofs.«109016_j48180943126805_2_alg».proof.Proof.Gen.KernelIdeal.Points
import proofs.«109016_j48180943126805_2_alg».proof.Proof.KernelIdealRuns1
import proofs.«109016_j48180943126805_2_alg».proof.Proof.KernelIdealRegion1
import proofs.«109016_j48180943126805_2_alg».proof.Proof.KernelIdealAcc1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open scoped BigOperators
open Idealize.ShloMosaic.ValueIdx Cert.TileSum Cert.KernelIdeal.Acc

/-! ## Where the scale, bias and output blocks sit -/

/-- The printed index maps of the scale row, the bias row and the output, decided once over the grid. -/
theorem idx1_2 : ∀ t : Fin cfg1.N, win1_2.index t (0 : Fin 2) = 0 ∧ win1_2.index t (1 : Fin 2) = t.val / 16 % 2 :=
  (by decide +kernel : ∀ t : Fin grid1.N, win1_2.index t (0 : Fin 2) = 0 ∧ win1_2.index t (1 : Fin 2) = t.val / 16 % 2)
theorem idx1_3 : ∀ t : Fin cfg1.N, win1_3.index t (0 : Fin 2) = 0 ∧ win1_3.index t (1 : Fin 2) = t.val / 16 % 2 :=
  (by decide +kernel : ∀ t : Fin grid1.N, win1_3.index t (0 : Fin 2) = 0 ∧ win1_3.index t (1 : Fin 2) = t.val / 16 % 2)
theorem idx1_4 : ∀ t : Fin cfg1.N, win1_4.index t (0 : Fin 2) = t.val / 32 ∧ win1_4.index t (1 : Fin 2) = t.val / 16 % 2 :=
  (by decide +kernel : ∀ t : Fin grid1.N, win1_4.index t (0 : Fin 2) = t.val / 32 ∧ win1_4.index t (1 : Fin 2) = t.val / 16 % 2)

section blocks

variable (V : (c : Dev nD) → (b : Ref sig .tc) → Buf (Elt F) ((c : Thread nD τ).loc b))

/-- An entry of the scale block at point `t`. -/
theorem blk1_2_at (c : Dev nD) (t : Fin cfg1.N) (b : Fin 2048) :
    blk1 V c 2 t (ix2 (0 : Fin 1) b) = (V c main_v3 : S1x4096.Idx → Elt F .f32) (ix2 (0 : Fin 1) (qRow t.val b)) := by
  obtain ⟨e0, e1⟩ := idx1_2 t
  show (V c main_v3 : S1x4096.Idx → Elt F .f32) (((cfg1.win 2).blk t).view.emb (ix2 (0 : Fin 1) b)) = _
  refine congrArg _ (funext fun d => Fin.ext ?_)
  match d with
  | ⟨0, _⟩ => show win1_2.index t (0 : Fin 2) * 1 + 1 * 0 = 0; omega
  | ⟨1, _⟩ => show win1_2.index t (1 : Fin 2) * 2048 + 1 * b.val = 2048 * (t.val / 16 % 2) + b.val; omega

/-- An entry of the bias block at point `t`. -/
theorem blk1_3_at (c : Dev nD) (t : Fin cfg1.N) (b : Fin 2048) :
    blk1 V c 3 t (ix2 (0 : Fin 1) b) = (V c main_v2 : S1x4096.Idx → Elt F .f32) (ix2 (0 : Fin 1) (qRow t.val b)) := by
  obtain ⟨e0, e1⟩ := idx1_3 t
  show (V c main_v2 : S1x4096.Idx → Elt F .f32) (((cfg1.win 3).blk t).view.emb (ix2 (0 : Fin 1) b)) = _
  refine congrArg _ (funext fun d => Fin.ext ?_)
  match d with
  | ⟨0, _⟩ => show win1_3.index t (0 : Fin 2) * 1 + 1 * 0 = 0; omega
  | ⟨1, _⟩ => show win1_3.index t (1 : Fin 2) * 2048 + 1 * b.val = 2048 * (t.val / 16 % 2) + b.val; omega

/-- Where entry (a, b) of the output block at point `t` sits in the result array. -/
theorem blk1_4_emb (t : Fin cfg1.N) (a : Fin 1024) (b : Fin 2048) :
    ((cfg1.win 4).blk t).view.emb (ix2 a b) = (ix2 (xRow t.val t.isLt a) (qRow t.val b) : S8192x4096.Idx) := by
  obtain ⟨e0, e1⟩ := idx1_4 t
  refine funext fun d => Fin.ext ?_
  match d with
  | ⟨0, _⟩ => show win1_4.index t (0 : Fin 2) * 1024 + 1 * a.val = 1024 * (t.val / 32) + a.val; omega
  | ⟨1, _⟩ => show win1_4.index t (1 : Fin 2) * 2048 + 1 * b.val = 2048 * (t.val / 16 % 2) + b.val; omega

end blocks

/-! ## The result array -/

section ideal

variable (V : (c : Dev nD) → (b : Ref sig .tc) → Buf (Elt Ideal) ((c : Thread nD τ).loc b))

/-- The scale row as the region finds it. -/
def inS (c : Dev nD) : S1x4096.Idx → EReal := V c main_v3
/-- The bias row as the region finds it. -/
def inB (c : Dev nD) : S1x4096.Idx → EReal := V c main_v2

/-- The function of the array index the result array ends holding: the inner product of row r of X with row o of Q,
    times the scale of column o, plus the bias of column o. -/
def outG (c : Dev nD) : S8192x4096.Idx → EReal := fun i =>
  (∑ m : Fin 4096, rowTerms V c (i 0) (i 1) m) * inS V c (ix2 (0 : Fin 1) (i 1)) + inB V c (ix2 (0 : Fin 1) (i 1))

/-- WHAT A LAST TILE WRITES BACK is its block of that function. -/
theorem flushed_eq (c : Dev nD) (t : Fin cfg1.N) (hf : (cfg1.win 4).flush t = true) :
    (dat1 V c).flushed 4 t = ((cfg1.win 4).blk t).view.read (Elt Ideal) (outG V c) := by
  have h1 : t.val % 16 = 15 := (flush1_4 t).mp hf
  funext y
  obtain ⟨a, b, rfl⟩ : ∃ (a : Fin 1024) (b : Fin 2048), y = ix2 a b := ⟨y 0, y 1, eq_ix2 y⟩
  show (cfg1.win 4).cut (grid1.coords t) ((dat1 V c).after 4 t) (ix2 a b) = outG V c (((cfg1.win 4).blk t).view.emb (ix2 a b))
  rw [dat1_after_4, blk1_4_emb t a b]
  show (accAt1 V c t.val t.isLt).1 (ix2 a b) = _
  rw [out_last V c t h1, Pay.pay_out, acc_at V c t.val t.isLt a b, h1, accAfter_last, blk1_2_at, blk1_3_at]
  rfl

/-- Every index of the result array is in the block written back at the last K-tile of its output block. -/
theorem cover4 (i : S8192x4096.Idx) :
    ∃ t : Fin cfg1.N, (cfg1.win 4).flush t = true ∧ i ∈ ((cfg1.win 4).blk t).view.set := by
  have hN : cfg1.N = 256 := N_1
  have hr : (i 0).val < 8192 := (i 0).isLt
  have ho : (i 1).val < 4096 := (i 1).isLt
  obtain ⟨t, ht⟩ : ∃ t : Fin cfg1.N, t.val = 32 * ((i 0).val / 1024) + 16 * ((i 1).val / 2048) + 15 :=
    ⟨⟨32 * ((i 0).val / 1024) + 16 * ((i 1).val / 2048) + 15, by omega⟩, rfl⟩
  obtain ⟨e0, e1⟩ := idx1_4 t
  refine ⟨t, (flush1_4 t).mpr (by omega), ?_⟩
  show i ∈ ((View.whole main_v4).slice (win1_4.rect t)).set
  rw [View.set_slice_whole, Rect.mem_set_unit]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 2048 ≤ (i 1).val ∧ (i 1).val < win1_4.index t (1 : Fin 2) * 2048 + 2048
    omega

/-- THE RESULT ARRAY after the run is that function. -/
theorem out_array (c : Dev nD) : (dat1 V c).arrAt 4 cfg1.N = outG V c :=
  (dat1 V c).arrAt_eq_of_cover 4 (outG V c) (flushed_eq V c) cover4

/-- Entry (r, o) of the result array: the inner product of row r of the inputs with row o of the coded weights, times
    the scale of column o, plus the bias of column o — the four arrays as the region finds them. -/
theorem out_final (c : Dev nD) (X : S8192x4096.Idx → EReal) (Q : S4096x4096.Idx → EReal) (S B : S1x4096.Idx → EReal)
    (hX : X = V c main_v1) (hQ : Q = V c main_v0) (hS : S = V c main_v3) (hB : B = V c main_v2)
    (r : Fin 8192) (o : Fin 4096) :
    ((dat1 V c).arrAt 4 cfg1.N : S8192x4096.Idx → EReal) (ix2 r o)
      = (∑ n : Fin 4096, X (ix2 r n) * Q (ix2 o n)) * S (ix2 (0 : Fin 1) o) + B (ix2 (0 : Fin 1) o) := by
  subst hX hQ hS hB
  rw [out_array V c]
  rfl

end ideal

end Cert.KernelIdeal.Fr

end
-- ==== Proof.KernelIdealResultEq.lean ====
/-
  The idealized kernel's result array is the specification: the run's name for the result buffer's final contents,
  read through the last reshape, the second region's output as a product with scale and bias, and the region's inputs
  as reshapes of the arguments and the coded weights.
-/
import proofs.«109016_j48180943126805_2_alg».proof.Proof.KernelIdealResult
import proofs.«109016_j48180943126805_2_alg».proof.Proof.KernelIdealOut1

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The second region's output array is the product with scale and bias, over what the region is entered with. -/
theorem product_form (c : Dev nD) : ProductForm m ρ c := by
  unfold ProductForm
  intro X Q S B Y r o
  exact out_final (in1 m ρ) c X Q S B rfl rfl rfl rfl r o

/-- The result buffer ends holding `Cert.Tern.out` of the four argument arrays. -/
theorem result_eq (c : Dev nD) :
    (at4 m ρ c (Proc.devRef .tc main_v5) : S4x2048x4096.Idx → EReal)
      = Cert.Tern.out (m ((c : Thread nD τ).loc main_arg0)) (m ((c : Thread nD τ).loc main_arg1))
          (m ((c : Thread nD τ).loc main_arg2)) (m ((c : Thread nD τ).loc main_arg3)) :=
  result_of_product m ρ c (product_form m ρ c)

end Cert.KernelIdeal.Fr

end
-- ==== Proof.LibRowScale.lean ====
/-
  Scaling the rows of a matrix by a per-row factor, at the extended reals.

  A vector of per-row factors `v : [A]` is stretched along the rows of an `[A, B]` matrix in two host steps, `[A] → [A, 1]`
  (dims 0) and `[A, 1] → [A, B]` (dims 0, 1); read at `(a, b)` the result is `v a`. With the factor `1 / max (c a) 1`,
  multiplying the matrix by the stretched factor is dividing it by the stretched `max (c a) 1`: the divisor is at least one,
  so it is not zero, and a quotient by a non-zero extended real is the product with its inverse — for every extended real
  numerator and every extended real `c a`, infinite ones included. The float word `0x3F800000` denotes the real one.
-/
import Idealize.ShloMosaic.PureOps.Ideal.Laws
import Idealize.ShloMosaic.Lib.ValueIdx
import Idealize.ShloMosaic.Lib.Pipeline.Value

noncomputable section

namespace Cert.LibRowScale

open Idealize.ShloMosaic Idealize.ShloMosaic.ValueIdx

/-- The float word of `1.0` denotes the real one. -/
theorem one_word : Ideal.ofBits .f32 0x3F800000#32 = 1 := by
  simp [Ideal.ofBits, Ideal.ieee, -EReal.coe_mul]; norm_num

/-- `max c 1` is not zero, whatever `c`. -/
theorem max_one_ne_zero (c : EReal) : max c 1 ≠ 0 :=
  ne_of_gt (lt_of_lt_of_le (by exact_mod_cast (zero_lt_one : (0 : ℝ) < 1)) (le_max_right c 1))

/-- `a · (1 / max c 1) = a / max c 1` on the extended reals. -/
theorem mul_recip (a c : EReal) : a * Ideal.div 1 (max c 1) = Ideal.div a (max c 1) := by
  rw [Ideal.div, Ideal.div, if_neg (max_one_ne_zero c), if_neg (max_one_ne_zero c), one_mul]

variable {α : Type}

/-- `[A]` laid into `[A, 1]` (dims 0), at `(a, z)`: the operand at `a`. -/
theorem hb_a_a1 {A : ℕ} (h : (⟨1, ![A]⟩ : Shape).BroadcastsInDim ⟨2, ![A, 1]⟩ ![0])
    (x : (⟨1, ![A]⟩ : Shape).Idx → α) (a : Fin A) (z : Fin 1) :
    broadcastInDim ⟨2, ![A, 1]⟩ ![0] h x (ix2 a z) = x (ix1 a) := by
  refine broadcastInDim_apply _ h x _ _ fun d => ?_
  match d with
  | ⟨0, _⟩ =>
    show a.val = if A = 1 then 0 else a.val
    split_ifs with hA
    · have := a.isLt; omega
    · rfl

/-- `[A, 1]` stretched to `[A, B]` (dims 0, 1), at `(a, b)`: the operand at `(a, 0)`. -/
theorem hb_a1_ab {A B : ℕ} (h : (⟨2, ![A, 1]⟩ : Shape).BroadcastsInDim ⟨2, ![A, B]⟩ ![0, 1])
    (x : (⟨2, ![A, 1]⟩ : Shape).Idx → α) (a : Fin A) (b : Fin B) :
    broadcastInDim ⟨2, ![A, B]⟩ ![0, 1] h x (ix2 a b) = x (ix2 a 0) := by
  refine broadcastInDim_apply _ h x _ _ fun d => ?_
  match d with
  | ⟨0, _⟩ =>
    show a.val = if A = 1 then 0 else a.val
    split_ifs with hA
    · have := a.isLt; omega
    · rfl
  | ⟨1, _⟩ => rfl

/-- A per-row factor stretched along the rows, at `(a, b)`: the factor of row `a`. -/
theorem rowStretch_apply {A B : ℕ} (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) :=
  (hb_a1_ab h2 _ a b).trans (hb_a_a1 h1 v a 0)

/-- A scalar broadcast to any shape, at any index: the scalar. -/
theorem hb_scalar {t : Shape} (h : (⟨0, ![]⟩ : Shape).BroadcastsInDim t ![])
    (x : (⟨0, ![]⟩ : Shape).Idx → α) (j : t.Idx) :
    broadcastInDim t ![] h x j = x ix0 :=
  broadcastInDim_apply _ h x _ _ fun d => d.elim0

/-- The matrix times the stretched `1 / max c 1` is the matrix divided by the stretched `max c 1`, the ones being
    the float word of `1.0` broadcast. -/
theorem mul_stretched_recip {A B : ℕ} (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1])
    (M : FVec Ideal ⟨2, ![A, B]⟩ .f32) (c : FVec Ideal ⟨1, ![A]⟩ .f32) :
    mulf M (broadcastInDim ⟨2, ![A, B]⟩ ![0, 1] h2 (broadcastInDim ⟨2, ![A, 1]⟩ ![0] h1
        (Host.divf (broadcastInDim ⟨1, ![A]⟩ ![] h0 (constant (F := Ideal) ⟨0, ![]⟩ .f32 0x3F800000#32))
          (maximumf c (broadcastInDim ⟨1, ![A]⟩ ![] h0 (constant (F := Ideal) ⟨0, ![]⟩ .f32 0x3F800000#32))))))
      = Host.divf M (broadcastInDim ⟨2, ![A, B]⟩ ![0, 1] h2 (broadcastInDim ⟨2, ![A, 1]⟩ ![0] h1
          (maximumf c (broadcastInDim ⟨1, ![A]⟩ ![] h0 (constant (F := Ideal) ⟨0, ![]⟩ .f32 0x3F800000#32))))) := by
  funext i
  obtain ⟨a, b, rfl⟩ : ∃ (a : Fin A) (b : Fin B), i = ix2 a b := ⟨i 0, i 1, eq_ix2 i⟩
  have e1 : ∀ j : (⟨1, ![A]⟩ : Shape).Idx,
      broadcastInDim ⟨1, ![A]⟩ ![] h0 (constant (F := Ideal) ⟨0, ![]⟩ .f32 0x3F800000#32) j = (1 : EReal) :=
    fun j => (hb_scalar h0 _ j).trans one_word
  show M (ix2 a b) * _ = Ideal.div (M (ix2 a b)) _
  rw [rowStretch_apply h1 h2 _ a b, rowStretch_apply h1 h2 _ a b]
  show M (ix2 a b) * Ideal.div _ (max (c (ix1 a)) _) = Ideal.div (M (ix2 a b)) (max (c (ix1 a)) _)
  rw [e1]
  exact mul_recip _ _

end Cert.LibRowScale

end
-- ==== Proof.RefValue.lean ====
/-
  The reference program, read at an index, is the specification.

  The reference codes each weight entry against the mean absolute value of its row (the row's sum of `max v (-v)` from
  the word of zero, divided by the word of 4096.0), adds the weight to the code and takes it away again, multiplies by the
  output channel's scale, contracts against the input row and adds the bias.  Read at an index, the row mean is the
  specification's `alphaRow`; the two strict comparisons and the two selections are the specification's `qRow`.  Two
  steps need the entries to be real numbers: `(q + w) - w = q` when `w` is real (on the extended reals `⊤ - ⊤ = ⊥`),
  and `∑ i, x i * (q i * s) = (∑ i, x i * q i) * s` when every factor is real (the extended reals do not distribute
  over sums with infinite terms of both signs).  The three code words 1.0, -1.0 and 0.0 are real.
-/
import proofs.«109016_j48180943126805_2_alg».proof.Proof.Gen.ReferenceIdeal.Read
import proofs.«109016_j48180943126805_2_alg».proof.Proof.Spec
import proofs.«109016_j48180943126805_2_alg».proof.Proof.LibRowScale

noncomputable section

open scoped BigOperators

namespace Cert.RefSide

open Idealize.ShloMosaic Idealize.ShloMosaic.ValueIdx Cert.ReferenceIdeal Cert.ReferenceIdeal.Gen Cert.ReferenceIdeal.Read
open Cert.Tern

/-! ## The three code words are real numbers -/

/-- The float word of `1.0` denotes the real one. -/
theorem one_word : Ideal.ofBits .f32 0x3F800000#32 = ((1 : ℝ) : EReal) := by
  rw [Cert.LibRowScale.one_word]; rfl

/-- The float word of `-1.0` denotes the real minus one. -/
theorem neg_one_word : Ideal.ofBits .f32 0xBF800000#32 = ((-1 : ℝ) : EReal) := by
  simp [Ideal.ofBits, Ideal.ieee, -EReal.coe_mul]; norm_num

/-- The float word of `0.0` denotes the real zero. -/
theorem zero_word : Ideal.ofBits .f32 0x00000000#32 = ((0 : ℝ) : EReal) := by
  rw [Ideal.ofBits_zero_f32]; rfl

/-! ## Comparisons and selections on the extended reals -/

/-- Selecting on "greater than" is the if-then-else on the strict order. -/
theorem select_ogt {α : Type} (x y : EReal) (a b : α) :
    Scalar.select (Ideal.cmp .ogt x y) a b = if y < x then a else b := by
  unfold Scalar.select Ideal.cmp
  by_cases h : y < x <;> simp [h]

/-- Selecting on "less than" is the if-then-else on the strict order. -/
theorem select_olt {α : Type} (x y : EReal) (a b : α) :
    Scalar.select (Ideal.cmp .olt x y) a b = if x < y then a else b := by
  unfold Scalar.select Ideal.cmp
  by_cases h : x < y <;> simp [h]

/-! ## The two laws that need real entries -/

/-- Adding a real and taking it away again changes nothing. -/
theorem add_sub_real (q w : EReal) (hq : ∃ r : ℝ, q = (r : EReal)) (hw : ∃ r : ℝ, w = (r : EReal)) :
    q + w - w = q := by
  obtain ⟨a, rfl⟩ := hq
  obtain ⟨b, rfl⟩ := hw
  rw [← EReal.coe_add, ← EReal.coe_sub, add_sub_cancel_right]

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A common real factor comes out of an inner product of real entries. -/
theorem sum_mul_scale {ι : Type} [Fintype ι] (x q : ι → EReal) (s : EReal)
    (hx : ∀ i, ∃ r : ℝ, x i = (r : EReal)) (hq : ∀ i, ∃ r : ℝ, q i = (r : EReal)) (hs : ∃ r : ℝ, s = (r : EReal)) :
    ∑ i, x i * (q i * s) = (∑ i, x i * q i) * s := by
  choose xr hxr using hx
  choose qr hqr using hq
  obtain ⟨sr, rfl⟩ := hs
  simp only [hxr, hqr, ← EReal.coe_mul]
  rw [← coe_sum, ← coe_sum, ← EReal.coe_mul, Finset.sum_mul]
  simp only [mul_assoc]

/-! ## The reference's stages read at an entry `(o, k)` of the weight matrix -/

/-- The row mean of row `o`: the generated stage, read at `(o, 0)`, is the specification's `alphaRow`. -/
theorem v4_row (x1 : (⟨S4096x4096, .f32⟩ : BufTy).Contents (Elt Ideal)) (o : Fin 4096) :
    val_main_v4 (F := Ideal) x1 (ix2 o (0 : Fin 1)) = alphaRow (rowOf x1 o) := by
  rw [val_main_v4_apply, val_main_v2_apply, val_main_v3_apply, val_main_cst_0_apply, val_main_v1_apply,
    val_main_cst_apply]
  show Ideal.div (Ideal.ofBits .f32 0x00000000#32 + _) (Ideal.ofBits .f32 0x45800000#32) = _
  rw [Ideal.ofBits_zero_f32, zero_add]
  unfold alphaRow
  refine congrArg (Ideal.div · _) (Finset.sum_congr rfl fun k _ => ?_)
  rw [val_main_v0_apply]
  have e : idx_main_v1 (idx_main_v2 (ix2 o (0 : Fin 1))) k = ix2 o k :=
    funext fun a => by match a with | ⟨0, _⟩ => rfl | ⟨1, _⟩ => rfl
  rw [e]
  rfl

/-- The row mean stretched along the row, at `(o, k)`. -/
theorem v5_at (x1 : (⟨S4096x4096, .f32⟩ : BufTy).Contents (Elt Ideal)) (o k : Fin 4096) :
    val_main_v5 (F := Ideal) x1 (ix2 o k) = alphaRow (rowOf x1 o) := by
  rw [val_main_v5_apply]
  have e : idx_main_v5 (ix2 o k) = ix2 o (0 : Fin 1) :=
    funext fun a => by match a with | ⟨0, _⟩ => rfl | ⟨1, _⟩ => rfl
  rw [e, v4_row]

/-- Minus the row mean stretched along the row, at `(o, k)`. -/
theorem v8_at (x1 : (⟨S4096x4096, .f32⟩ : BufTy).Contents (Elt Ideal)) (o k : Fin 4096) :
    val_main_v8 (F := Ideal) x1 (ix2 o k) = -(alphaRow (rowOf x1 o)) := by
  rw [val_main_v8_apply, val_main_v7_apply]
  have e : idx_main_v8 (ix2 o k) = ix2 o (0 : Fin 1) :=
    funext fun a => by match a with | ⟨0, _⟩ => rfl | ⟨1, _⟩ => rfl
  rw [e, v4_row]
  rfl

/-- The code of entry `(o, k)`: the two comparisons and the two selections are the specification's `q`. -/
theorem v11_at (x1 : (⟨S4096x4096, .f32⟩ : BufTy).Contents (Elt Ideal)) (o k : Fin 4096) :
    val_main_v11 (F := Ideal) x1 (ix2 o k) = q x1 o k := by
  rw [val_main_v11_apply, val_main_v6_apply, val_main_v10_apply, val_main_v9_apply, v5_at, v8_at,
    val_main_call1_v0_apply, val_main_cst_3_apply, val_main_call0_v0_apply, val_main_cst_1_apply,
    val_main_call0_v1_apply, val_main_cst_2_apply]
  show Scalar.select (Ideal.cmp .ogt _ _) (Ideal.ofBits .f32 0x3F800000#32)
      (Scalar.select (Ideal.cmp .olt _ _) (Ideal.ofBits .f32 0xBF800000#32) (Ideal.ofBits .f32 0x00000000#32)) = _
  rw [select_ogt, select_olt]
  rfl

/-- Every code is a real number. -/
theorem q_real (w : (⟨2, ![4096, 4096]⟩ : Shape).Idx → EReal) (o k : Fin 4096) : ∃ r : ℝ, q w o k = (r : EReal) := by
  unfold q qRow
  split_ifs
  · exact ⟨1, one_word⟩
  · exact ⟨-1, neg_one_word⟩
  · exact ⟨0, zero_word⟩

/-- The code plus the weight minus the weight, at `(o, k)`, is the code when the weight is real. -/
theorem v14_at (x1 : (⟨S4096x4096, .f32⟩ : BufTy).Contents (Elt Ideal)) (hw : Finite x1) (o k : Fin 4096) :
    val_main_v14 (F := Ideal) x1 (ix2 o k) = q x1 o k := by
  rw [val_main_v14_apply, val_main_v13_apply, val_main_v12_apply, v11_at]
  exact add_sub_real _ _ (q_real x1 o k) (hw (ix2 o k))

/-- The scaled code at `(o, k)`. -/
theorem v16_at (x1 : (⟨S4096x4096, .f32⟩ : BufTy).Contents (Elt Ideal)) (x2 : (⟨S4096x1, .f32⟩ : BufTy).Contents (Elt Ideal))
    (hw : Finite x1) (o k : Fin 4096) :
    val_main_v16 (F := Ideal) x1 x2 (ix2 o k) = q x1 o k * x2 (ix2 o (0 : Fin 1)) := by
  rw [val_main_v16_apply, v14_at x1 hw, val_main_v15_apply]
  have e : idx_main_v15 (ix2 o k) = ix2 o (0 : Fin 1) :=
    funext fun a => by match a with | ⟨0, _⟩ => rfl | ⟨1, _⟩ => rfl
  rw [e]
  rfl

/-! ## The assembly -/

/-- The reference's result at `(a, t, o)` is the specification's, for real inputs, weights and scales. -/
theorem ref_at (x0 : (⟨S4x2048x4096, .f32⟩ : BufTy).Contents (Elt Ideal)) (x1 : (⟨S4096x4096, .f32⟩ : BufTy).Contents (Elt Ideal))
    (x2 : (⟨S4096x1, .f32⟩ : BufTy).Contents (Elt Ideal)) (x3 : (⟨S4096, .f32⟩ : BufTy).Contents (Elt Ideal))
    (hx : Finite x0) (hw : Finite x1) (hs : Finite x2) (a : Fin 4) (t : Fin 2048) (o : Fin 4096) :
    val_main_v20 (F := Ideal) x0 x1 x2 x3 (ix3 a t o) = outAt x0 x1 x2 x3 a t o := by
  rw [val_main_v20_apply, val_main_v17_apply, val_main_v19_apply, val_main_v18_apply]
  have eb : idx_main_v18 (idx_main_v19 (ix3 a t o)) = ix1 o :=
    funext fun d => by match d with | ⟨0, _⟩ => rfl
  have el : ∀ k : Fin 4096, lidx_main_v17 (ix3 a t o) k = ix3 a t k := fun k =>
    funext fun d => by match d with | ⟨0, _⟩ => rfl | ⟨1, _⟩ => rfl | ⟨2, _⟩ => rfl
  have er : ∀ k : Fin 4096, ridx_main_v17 (ix3 a t o) k = ix2 o k := fun k =>
    funext fun d => by match d with | ⟨0, _⟩ => rfl | ⟨1, _⟩ => rfl
  rw [eb]
  simp only [el, er, v16_at x1 x2 hw]
  unfold outAt
  refine congrArg (· + x3 (ix1 o)) ?_
  exact sum_mul_scale (fun k => x0 (ix3 a t k)) (fun k => q x1 o k) (x2 (ix2 o (0 : Fin 1)))
    (fun k => hx _) (fun k => q_real x1 o k) (hs _)

/-- The reference's result array is the specification's, for real inputs, weights and scales. -/
theorem ref_is_out (x0 : (⟨S4x2048x4096, .f32⟩ : BufTy).Contents (Elt Ideal)) (x1 : (⟨S4096x4096, .f32⟩ : BufTy).Contents (Elt Ideal))
    (x2 : (⟨S4096x1, .f32⟩ : BufTy).Contents (Elt Ideal)) (x3 : (⟨S4096, .f32⟩ : BufTy).Contents (Elt Ideal))
    (hx : Finite x0) (hw : Finite x1) (hs : Finite x2) :
    val_main_v20 (F := Ideal) x0 x1 x2 x3 = out x0 x1 x2 x3 := by
  funext j
  obtain ⟨a, t, o, rfl⟩ : ∃ (a : Fin 4) (t : Fin 2048) (o : Fin 4096), j = ix3 a t o := ⟨j 0, j 1, j 2, eq_ix3 j⟩
  exact ref_at x0 x1 x2 x3 hx hw hs a t o

end Cert.RefSide

end
-- ==== Proof.PreFinite.lean ====
/-
  The precondition gives real entries.

  The precondition is the conjunction, over the four argument arrays, of "every entry's absolute value is strictly below
  plus infinity", each conjunct a reduction by `and` over all axes from the constant one.  If the conjunction is one, each
  reduction is one, so each comparison is one at every index; the float word `0x7F800000` denotes plus infinity, and an
  extended real `v` with `max v (-v) < ⊤` is neither infinity, hence a real number.
-/
import proofs.«109016_j48180943126805_2_alg».proof.Pre_finite_inputs
import proofs.«109016_j48180943126805_2_alg».proof.Proof.Spec
import Idealize.ShloMosaic.Lib.ReduceAll
import Idealize.ShloMosaic.Lib.IdealHost
import Idealize.ShloMosaic.Lib.Pipeline.Value

noncomputable section

namespace Cert.RefSide

open Idealize.ShloMosaic Idealize.ShloMosaic.ValueIdx Cert.Pre_finite_inputs
open Cert.Tern

/-- The result shape of a reduction over all axes has one index. -/
instance subsingleton_scalar_idx : Subsingleton S_.Idx := ⟨fun a b => funext fun d => d.elim0⟩

/-- The float word `0x7F800000` denotes plus infinity. -/
theorem inf_word : Ideal.ofBits .f32 0x7F800000#32 = ⊤ := by simp [Ideal.ofBits, Ideal.ieee]

/-- An extended real whose absolute value compares strictly below plus infinity is a real number. -/
theorem real_of_abs_lt_inf (v : EReal)
    (h : Ideal.cmp .olt (max v (-v)) (Ideal.ofBits .f32 0x7F800000#32) = 1#1) : ∃ r : ℝ, v = (r : EReal) := by
  rw [inf_word] at h
  unfold Ideal.cmp at h
  have hlt : max v (-v) < ⊤ := by
    by_contra hn
    simp [hn] at h
  induction v using EReal.rec with
  | bot => simp at hlt
  | coe r => exact ⟨r, rfl⟩
  | top => simp at hlt

/-- One conjunct: if "every absolute value is strictly below plus infinity", reduced by `and` over all axes from the
    constant one, is one, then every entry of the array is a real number. -/
theorem finite_of_all {S : Shape} {axes : List (Fin S.rank)} (hb : S_.BroadcastsInDim S (![] : Fin 0 → Fin S.rank))
    (hr : S.ReducesTo axes S_) (hu : 0 < S_.numel) (x : FVec Ideal S .f32)
    (e : Host.reduce IntOp.andi
        (cmpf .olt (Host.absf x) (broadcastInDim S ![] hb (constant (F := Ideal) S_ .f32 0x7F800000#32)))
        (constantI S_ 1 1#1) hr hu ix0 = 1#1) : Finite x := by
  intro i
  have hi := Host.reduce_andi_all _ _ hr hu ix0 e i
  have hb' := broadcastInDim_scalar_apply hb (constant (F := Ideal) S_ .f32 0x7F800000#32) i
  rw [cmpf_apply, hb'] at hi
  exact real_of_abs_lt_inf (x i) hi

/-- The precondition makes every entry of the four argument arrays a real number. -/
theorem finite_of_pre [Cert.Pre_finite_inputs.Facts]
    (x0 : (⟨S4x2048x4096, .f32⟩ : BufTy).Contents (Elt Ideal)) (x1 : (⟨S4096x4096, .f32⟩ : BufTy).Contents (Elt Ideal))
    (x2 : (⟨S4096x1, .f32⟩ : BufTy).Contents (Elt Ideal)) (x3 : (⟨S4096, .f32⟩ : BufTy).Contents (Elt Ideal))
    (h : Cert.Pre_finite_inputs.fn (F := Ideal) x0 x1 x2 x3 = fun _ => 1#1) :
    Finite x0 ∧ Finite x1 ∧ Finite x2 ∧ Finite x3 := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨finite_of_all _ _ _ x0 e0, finite_of_all _ _ _ x1 e1, finite_of_all _ _ _ x2 e2, finite_of_all _ _ _ x3 e3⟩

end Cert.RefSide

end
-- ==== Proof.lean ====
/-
  The certificate: a ternary-weight linear layer computed by two Pallas kernels agrees, over the extended reals and on
  finite inputs, with its jnp reference.

  Both programs code each weight row into {1, -1, 0} against the row's mean absolute value (Proof/Spec.lean).  The
  kernel multiplies the input rows by the coded rows tile by tile — sixteen tiles of 256 along the contraction, summed
  in an accumulator —, then scales the sum by the output channel's scale and adds its bias.  The reference adds the
  weights to the code and subtracts them again (a straight-through estimator), scales every coded weight, and
  contracts once.  On finite inputs the two agree: adding and subtracting a real number changes nothing, a sum of
  reals may be taken tile by tile, and a real factor common to all terms of a finite sum may be taken out of it
  (Proof/RefValue.lean; the precondition gives the finiteness, Proof/PreFinite.lean).

  The three frames: each program runs to the end from any memory, faults nowhere and leaves its argument arrays as
  they were.  For the kernel, read at words and read at extended reals, this is the run of its two kernel regions and
  four host reshapes as segments (Proof/KernelRun.lean, Proof/KernelIdealRun.lean: the same text at the two programs),
  whose post also names the result buffer's final contents; for the reference it is its run with the result dropped.
  The ideal pass rewrote no operation of the kernel, so there is nothing to state about the idealization.
-/
import proofs.«109016_j48180943126805_2_alg».proof.Defs
import proofs.«109016_j48180943126805_2_alg».proof.Proof.Gen.Kernel
import proofs.«109016_j48180943126805_2_alg».proof.Proof.Gen.KernelIdeal
import proofs.«109016_j48180943126805_2_alg».proof.Proof.Gen.ReferenceIdeal
import proofs.«109016_j48180943126805_2_alg».proof.Proof.Gen.Pre_finite_inputs
import proofs.«109016_j48180943126805_2_alg».proof.Proof.Gen.ReferenceIdeal.Run
import proofs.«109016_j48180943126805_2_alg».proof.Proof.Gen.ReferenceIdeal.Read
import proofs.«109016_j48180943126805_2_alg».proof.Proof.KernelRun
import proofs.«109016_j48180943126805_2_alg».proof.Proof.KernelIdealRun
import proofs.«109016_j48180943126805_2_alg».proof.Proof.KernelIdealResultEq
import proofs.«109016_j48180943126805_2_alg».proof.Proof.RefValue
import proofs.«109016_j48180943126805_2_alg».proof.Proof.PreFinite
import Idealize.ShloMosaic.Adequacy
import Idealize.ShloMosaic.Init

noncomputable section

namespace Cert.Proof

open Idealize.ShloMosaic Idealize.ShloMosaic.TcCoe Idealize.SL.Sem

/-- The kernel as printed (words): it runs, faults nowhere, keeps its arguments. -/
theorem frame_kernel : Cert.frame_Kernel := fun m ρ _ => Cert.Kernel.Fr.frame m ρ

/-- The idealized kernel: the same. -/
theorem frame_kernelIdeal : Cert.frame_KernelIdeal := fun m ρ _ => Cert.KernelIdeal.Fr.frame m ρ

/-- The idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten by the ideal pass. -/
theorem preserves : Cert.preserves_Kernel_KernelIdeal := trivial

/-- At the ideal instance, from memories that agree on the four arguments, both programs end with the result array
    `Cert.Tern.out x w scale bias`: the kernel by its run read back through its segments, the reference by its run and,
    the precondition making x, w and scale finite, the two laws of real arithmetic named above. -/
theorem algebraic : Cert.algebraic_KernelIdeal_ReferenceIdeal := by
  intro m ρ m' ρ' hpre hagree
  refine ⟨fun c => Cert.Tern.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Fr.run_all m ρ)
    · exact (h c _ (Cert.KernelIdeal.Fr.held_ref Cert.KernelIdeal.main_v5 (by decide))).trans (Cert.KernelIdeal.Fr.result_eq m ρ c)
    · exact (h c _ (Cert.KernelIdeal.Fr.held_ref Cert.KernelIdeal.main_arg0 (by decide))).trans (Cert.KernelIdeal.Fr.at4_main_arg0 m ρ c)
    · exact (h c _ (Cert.KernelIdeal.Fr.held_ref Cert.KernelIdeal.main_arg1 (by decide))).trans (Cert.KernelIdeal.Fr.at4_main_arg1 m ρ c)
    · exact (h c _ (Cert.KernelIdeal.Fr.held_ref Cert.KernelIdeal.main_arg2 (by decide))).trans (Cert.KernelIdeal.Fr.at4_main_arg2 m ρ c)
    · exact (h c _ (Cert.KernelIdeal.Fr.held_ref Cert.KernelIdeal.main_arg3 (by decide))).trans (Cert.KernelIdeal.Fr.at4_main_arg3 m ρ c)
  · refine (θ_run Cert.ReferenceIdeal.defs _ _).mono (fun r h c => ⟨(h c).1.trans ?_, (h c).2⟩)
      (Cert.ReferenceIdeal.Value.run (F := Ideal) m' ρ')
    obtain ⟨hx, hw, hs, -⟩ := Cert.RefSide.finite_of_pre _ _ _ _ (hpre c)
    rw [(hagree c).1, (hagree c).2.1, (hagree c).2.2.1, (hagree c).2.2.2]
    exact (Cert.ReferenceIdeal.Read.val_main_v20_eq _ _ _ _).trans (Cert.RefSide.ref_is_out _ _ _ _ hx hw hs)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
